-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128 : Shape := ⟨1, ![128]⟩
abbrev S128x128 : Shape := ⟨2, ![128, 128]⟩
abbrev S2x1048576 : Shape := ⟨2, ![2, 1048576]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16384x16384 .f32) (main_arg1 : FVec F S16384x128 .f32) (main_arg2 : FVec F S128 .f32) (main_arg3 : FVec F S128x128 .f32) (main_arg4 : FVec F S128 .f32) (main_arg5 : IVec S2x1048576 32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16384x16384 : Shape := ⟨2, ![16384, 16384]⟩
abbrev S16384x128 : Shape := ⟨2, ![16384, 128]⟩
abbrev S128 : Shape := ⟨1, ![128]⟩
abbrev S128x128 : Shape := ⟨2, ![128, 128]⟩
abbrev S2x1048576 : Shape := ⟨2, ![2, 1048576]⟩
abbrev S16384 : Shape := ⟨1, ![16384]⟩
abbrev S1x1048576 : Shape := ⟨2, ![1, 1048576]⟩
abbrev S1048576 : Shape := ⟨1, ![1048576]⟩
abbrev S1064960 : Shape := ⟨1, ![1064960]⟩
abbrev S_ : Shape := ⟨0, ![]⟩
abbrev S1064960x1 : Shape := ⟨2, ![1064960, 1]⟩
abbrev S2048x1024 : Shape := ⟨2, ![2048, 1024]⟩
abbrev S1024x128 : Shape := ⟨2, ![1024, 128]⟩
abbrev S2048x128 : Shape := ⟨2, ![2048, 128]⟩
abbrev S1064960x128 : Shape := ⟨2, ![1064960, 128]⟩
abbrev S1x128 : Shape := ⟨2, ![1, 128]⟩
abbrev S4096x128 : Shape := ⟨2, ![4096, 128]⟩
abbrev S1048576x1 : Shape := ⟨2, ![1048576, 1]⟩
abbrev S1048576x128 : Shape := ⟨2, ![1048576, 128]⟩

abbrev nBuf : Space → Nat
  | .hbm => 113
  | .vmem => 13
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1048576, .i32⟩
  | .hbm, ⟨6, _⟩ => ⟨S16384, .i32⟩
  | .hbm, ⟨7, _⟩ => ⟨S1x1048576, .i32⟩
  | .hbm, ⟨8, _⟩ => ⟨S1048576, .i32⟩
  | .hbm, ⟨9, _⟩ => ⟨S1064960, .i32⟩
  | .hbm, ⟨10, _⟩ => ⟨S1x1048576, .i32⟩
  | .hbm, ⟨11, _⟩ => ⟨S1048576, .i32⟩
  | .hbm, ⟨12, _⟩ => ⟨S1064960, .i32⟩
  | .hbm, ⟨13, _⟩ => ⟨S_, .f32⟩
  | .hbm, ⟨14, _⟩ => ⟨S1064960, .f32⟩
  | .hbm, ⟨15, _⟩ => ⟨S_, .f32⟩
  | .hbm, ⟨16, _⟩ => ⟨S16384, .f32⟩
  | .hbm, ⟨17, _⟩ => ⟨S1064960x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .i1⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .i32⟩
  | .hbm, ⟨27, _⟩ => ⟨S1064960, .i32⟩
  | .hbm, ⟨28, _⟩ => ⟨S1064960, .i1⟩
  | .hbm, ⟨29, _⟩ => ⟨S_, .i32⟩
  | .hbm, ⟨30, _⟩ => ⟨S1064960, .i32⟩
  | .hbm, ⟨31, _⟩ => ⟨S1064960, .i32⟩
  | .hbm, ⟨32, _⟩ => ⟨S1064960, .i32⟩
  | .hbm, ⟨33, _⟩ => ⟨S1064960x1, .i32⟩
  | .hbm, ⟨34, _⟩ => ⟨S1064960, .f32⟩
  | .hbm, ⟨35, _⟩ => ⟨S_, .i32⟩
  | .hbm, ⟨36, _⟩ => ⟨S1064960, .i32⟩
  | .hbm, ⟨37, _⟩ => ⟨S1064960, .i1⟩
  | .hbm, ⟨38, _⟩ => ⟨S_, .i32⟩
  | .hbm, ⟨39, _⟩ => ⟨S1064960, .i32⟩
  | .hbm, ⟨40, _⟩ => ⟨S1064960, .i32⟩
  | .hbm, ⟨41, _⟩ => ⟨S1064960, .i32⟩
  | .hbm, ⟨42, _⟩ => ⟨S1064960x1, .i32⟩
  | .hbm, ⟨43, _⟩ => ⟨S1064960, .f32⟩
  | .hbm, ⟨44, _⟩ => ⟨S1064960, .f32⟩
  | .hbm, ⟨45, _⟩ => ⟨S16384x128, .f32⟩
  | .hbm, ⟨46, _⟩ => ⟨S_, .i32⟩
  | .hbm, ⟨47, _⟩ => ⟨S1064960, .i32⟩
  | .hbm, ⟨48, _⟩ => ⟨S1064960, .i1⟩
  | .hbm, ⟨49, _⟩ => ⟨S_, .i32⟩
  | .hbm, ⟨50, _⟩ => ⟨S1064960, .i32⟩
  | .hbm, ⟨51, _⟩ => ⟨S1064960, .i32⟩
  | .hbm, ⟨52, _⟩ => ⟨S1064960, .i32⟩
  | .hbm, ⟨53, _⟩ => ⟨S1064960x1, .i32⟩
  | .hbm, ⟨54, _⟩ => ⟨S1064960x128, .f32⟩
  | .hbm, ⟨55, _⟩ => ⟨S1064960x1, .f32⟩
  | .hbm, ⟨56, _⟩ => ⟨S1064960x128, .f32⟩
  | .hbm, ⟨57, _⟩ => ⟨S1064960x128, .f32⟩
  | .hbm, ⟨58, _⟩ => ⟨S_, .f32⟩
  | .hbm, ⟨59, _⟩ => ⟨S16384x128, .f32⟩
  | .hbm, ⟨60, _⟩ => ⟨S1064960x1, .i32⟩
  | .hbm, ⟨61, _⟩ => ⟨S16384x128, .f32⟩
  | .hbm, ⟨62, _⟩ => ⟨S1x128, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S_, .i32⟩
  | .hbm, ⟨70, _⟩ => ⟨S1064960, .i32⟩
  | .hbm, ⟨71, _⟩ => ⟨S1064960, .i1⟩
  | .hbm, ⟨72, _⟩ => ⟨S_, .i32⟩
  | .hbm, ⟨73, _⟩ => ⟨S1064960, .i32⟩
  | .hbm, ⟨74, _⟩ => ⟨S1064960, .i32⟩
  | .hbm, ⟨75, _⟩ => ⟨S1064960, .i32⟩
  | .hbm, ⟨76, _⟩ => ⟨S1064960x1, .i32⟩
  | .hbm, ⟨77, _⟩ => ⟨S1064960x128, .f32⟩
  | .hbm, ⟨78, _⟩ => ⟨S1064960x1, .f32⟩
  | .hbm, ⟨79, _⟩ => ⟨S1064960x128, .f32⟩
  | .hbm, ⟨80, _⟩ => ⟨S1064960x128, .f32⟩
  | .hbm, ⟨81, _⟩ => ⟨S_, .f32⟩
  | .hbm, ⟨82, _⟩ => ⟨S16384x128, .f32⟩
  | .hbm, ⟨83, _⟩ => ⟨S1064960x1, .i32⟩
  | .hbm, ⟨84, _⟩ => ⟨S16384x128, .f32⟩
  | .hbm, ⟨85, _⟩ => ⟨S1x128, .f32⟩
  | .hbm, ⟨86, _⟩ => ⟨S16384x128, .f32⟩
  | .hbm, ⟨87, _⟩ => ⟨S16384x128, .f32⟩
  | .hbm, ⟨88, _⟩ => ⟨S1x1048576, .i32⟩
  | .hbm, ⟨89, _⟩ => ⟨S1048576, .i32⟩
  | .hbm, ⟨90, _⟩ => ⟨S_, .i32⟩
  | .hbm, ⟨91, _⟩ => ⟨S1048576, .i32⟩
  | .hbm, ⟨92, _⟩ => ⟨S1048576, .i1⟩
  | .hbm, ⟨93, _⟩ => ⟨S_, .i32⟩
  | .hbm, ⟨94, _⟩ => ⟨S1048576, .i32⟩
  | .hbm, ⟨95, _⟩ => ⟨S1048576, .i32⟩
  | .hbm, ⟨96, _⟩ => ⟨S1048576, .i32⟩
  | .hbm, ⟨97, _⟩ => ⟨S1048576x1, .i32⟩
  | .hbm, ⟨98, _⟩ => ⟨S1048576x128, .f32⟩
  | .hbm, ⟨99, _⟩ => ⟨S1x1048576, .i32⟩
  | .hbm, ⟨100, _⟩ => ⟨S1048576, .i32⟩
  | .hbm, ⟨101, _⟩ => ⟨S_, .i32⟩
  | .hbm, ⟨102, _⟩ => ⟨S1048576, .i32⟩
  | .hbm, ⟨103, _⟩ => ⟨S1048576, .i1⟩
  | .hbm, ⟨104, _⟩ => ⟨S_, .i32⟩
  | .hbm, ⟨105, _⟩ => ⟨S1048576, .i32⟩
  | .hbm, ⟨106, _⟩ => ⟨S1048576, .i32⟩
  | .hbm, ⟨107, _⟩ => ⟨S1048576, .i32⟩
  | .hbm, ⟨108, _⟩ => ⟨S1048576x1, .i32⟩
  | .hbm, ⟨109, _⟩ => ⟨S1048576x128, .f32⟩
  | .hbm, ⟨110, _⟩ => ⟨S1048576x128, .f32⟩
  | .hbm, ⟨111, _⟩ => ⟨S_, .f32⟩
  | .hbm, ⟨112, _⟩ => ⟨S1048576, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S4096x128, .f32⟩
  | .local _ .vmem, ⟨8, _⟩ => ⟨S4096x128, .f32⟩
  | .local _ .vmem, ⟨9, _⟩ => ⟨S128x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_14 : Ref sig .tc := ⟨.hbm, 101, rfl⟩
abbrev main_v77 : Ref sig .tc := ⟨.hbm, 102, rfl⟩
abbrev main_v78 : Ref sig .tc := ⟨.hbm, 103, rfl⟩
abbrev main_c_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 1], ![false, false]⟩

def k1_cond2 (i : grid1.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1048576_S1x1048576_0_0 : S2x1048576.Slices ![0, 0] S1x1048576
  shapeCasts_S1x1048576_S1048576 : S1x1048576.ShapeCasts S1048576
  concatenates_S1048576_S16384_S1064960_d0 : Shape.Concatenates [S1048576, S16384] S1064960 0
  slices_S2x1048576_S1x1048576_1_0 : S2x1048576.Slices ![1, 0] S1x1048576
  bcast_S_S1064960 : S_.BroadcastsInDim S1064960 (![] : Fin 0 → Fin S1064960.rank)
  bcast_S_S16384 : S_.BroadcastsInDim S16384 (![] : Fin 0 → Fin S16384.rank)
  bcast_S1064960_S1064960x1_0 : S1064960.BroadcastsInDim S1064960x1 (![0] : Fin 1 → Fin S1064960x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  bcast_S1064960x1_S1064960x128_0_1 : S1064960x1.BroadcastsInDim S1064960x128 (![0, 1] : Fin 2 → Fin S1064960x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1048576x128_S1048576_d1 : S1048576x128.ReducesTo [1] S1048576
  h_S_ : 0 < S_.numel
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  dot_S2048x1024_S1024x128_S2048x128_1_0_0_1_n_n_wf : DotDims.WF S2048x1024 S1024x128 S2048x128 [1] [0] [0] [1] [] []
  gather_S16384x128_S1064960x1_S1064960x128_1_0_n_n_0_1_1128_wf : GatherDims.WF S16384x128 S1064960x1 S1064960x128 [1] [0] [] [0] [] 1 ![1, 128]
  scatter_S16384x128_S1064960x1_S1064960x128_1_0_0_1_wf : ScatterDims.WF S16384x128 S1064960x1 S1064960x128 [1] [0] [0] 1
  dot_S4096x128_S128x128_S4096x128_1_0_0_1_n_n_wf : DotDims.WF S4096x128 S128x128 S4096x128 [1] [0] [0] [1] [] []
  gather_S16384x128_S1048576x1_S1048576x128_1_0_n_n_0_1_1128_wf : GatherDims.WF S16384x128 S1048576x1 S1048576x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x128.size a
  hwx1_0 : ∀ i : grid1.Coords, EltTy.bits .f32 = 32 ∨ (Rect.block (s := S16384x128) S4096x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S16384x128.size a
  hwx1_2 : ∀ i : grid1.Coords, EltTy.bits .f32 = 32 ∨ (Rect.block (s := S16384x128) S4096x128.size (cc1_transform_2 i) (hinb1_2 i)).WholeWords (EltTy.packing .f32)

variable [Facts₀]

def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def gather_S16384x128_S1064960x1_S1064960x128_1_0_n_n_0_1_1128 : GatherDims S16384x128 S1064960x1 S1064960x128 where
  offsetDims := [1]
  collapsedSliceDims := [0]
  operandBatchingDims := []
  startIndicesBatchingDims := []
  startIndexMap := [0]
  indexVectorDim := 1
  sliceSizes := ![1, 128]
  wf := gather_S16384x128_S1064960x1_S1064960x128_1_0_n_n_0_1_1128_wf
def scatter_S16384x128_S1064960x1_S1064960x128_1_0_0_1 : ScatterDims S16384x128 S1064960x1 S1064960x128 where
  updateWindowDims := [1]
  insertedWindowDims := [0]
  scatterDimsToOperandDims := [0]
  indexVectorDim := 1
  wf := scatter_S16384x128_S1064960x1_S1064960x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v48) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128 : Shape := ⟨1, ![128]⟩
abbrev S128x128 : Shape := ⟨2, ![128, 128]⟩
abbrev S2x1048576 : Shape := ⟨2, ![2, 1048576]⟩
abbrev S16384 : Shape := ⟨1, ![16384]⟩
abbrev S1x1048576 : Shape := ⟨2, ![1, 1048576]⟩
abbrev S1048576 : Shape := ⟨1, ![1048576]⟩
abbrev S1064960 : Shape := ⟨1, ![1064960]⟩
abbrev S_ : Shape := ⟨0, ![]⟩
abbrev S1064960x1 : Shape := ⟨2, ![1064960, 1]⟩
abbrev S1064960x128 : Shape := ⟨2, ![1064960, 128]⟩
abbrev S1x128 : Shape := ⟨2, ![1, 128]⟩
abbrev S1048576x1 : Shape := ⟨2, ![1048576, 1]⟩
abbrev S1048576x128 : Shape := ⟨2, ![1048576, 128]⟩

abbrev nBuf : Space → Nat
  | .hbm => 145
  | .vmem => 0
  | .smem => 0
  | _ => 0

abbrev hbmTy0_0 (i : Nat) : BufTy := match i % 128 with
  | 0 => ⟨S16384x16384, .f32⟩
  | 1 => ⟨S16384x128, .f32⟩
  | 2 => ⟨S128, .f32⟩
  | 3 => ⟨S128x128, .f32⟩
  | 4 => ⟨S128, .f32⟩
  | 5 => ⟨S2x1048576, .i32⟩
  | 6 => ⟨S16384, .i32⟩
  | 7 => ⟨S1x1048576, .i32⟩
  | 8 => ⟨S1048576, .i32⟩
  | 9 => ⟨S1064960, .i32⟩
  | 10 => ⟨S1x1048576, .i32⟩
  | 11 => ⟨S1048576, .i32⟩
  | 12 => ⟨S1064960, .i32⟩
  | 13 => ⟨S16384x128, .f32⟩
  | 14 => ⟨S_, .f32⟩
  | 15 => ⟨S1064960, .f32⟩
  | 16 => ⟨S_, .f32⟩
  | 17 => ⟨S16384, .f32⟩
  | 18 => ⟨S1064960x1, .i32⟩
  | 19 => ⟨S16384, .f32⟩
  | 20 => ⟨S_, .f32⟩
  | 21 => ⟨S16384, .f32⟩
  | 22 => ⟨S16384, .i1⟩
  | 23 => ⟨S16384, .f32⟩
  | 24 => ⟨S_, .f32⟩
  | 25 => ⟨S16384, .f32⟩
  | 26 => ⟨S16384, .f32⟩
  | 27 => ⟨S_, .i32⟩
  | 28 => ⟨S1064960, .i32⟩
  | 29 => ⟨S1064960, .i1⟩
  | 30 => ⟨S_, .i32⟩
  | 31 => ⟨S1064960, .i32⟩
  | 32 => ⟨S1064960, .i32⟩
  | 33 => ⟨S1064960, .i32⟩
  | 34 => ⟨S1064960x1, .i32⟩
  | 35 => ⟨S1064960, .f32⟩
  | 36 => ⟨S_, .i32⟩
  | 37 => ⟨S1064960, .i32⟩
  | 38 => ⟨S1064960, .i1⟩
  | 39 => ⟨S_, .i32⟩
  | 40 => ⟨S1064960, .i32⟩
  | 41 => ⟨S1064960, .i32⟩
  | 42 => ⟨S1064960, .i32⟩
  | 43 => ⟨S1064960x1, .i32⟩
  | 44 => ⟨S1064960, .f32⟩
  | 45 => ⟨S1064960, .f32⟩
  | 46 => ⟨S_, .i32⟩
  | 47 => ⟨S1064960, .i32⟩
  | 48 => ⟨S1064960, .i1⟩
  | 49 => ⟨S_, .i32⟩
  | 50 => ⟨S1064960, .i32⟩
  | 51 => ⟨S1064960, .i32⟩
  | 52 => ⟨S1064960, .i32⟩
  | 53 => ⟨S1064960x1, .i32⟩
  | 54 => ⟨S1064960x128, .f32⟩
  | 55 => ⟨S1064960x1, .f32⟩
  | 56 => ⟨S1064960x128, .f32⟩
  | 57 => ⟨S1064960x128, .f32⟩
  | 58 => ⟨S_, .f32⟩
  | 59 => ⟨S16384x128, .f32⟩
  | 60 => ⟨S1064960x1, .i32⟩
  | 61 => ⟨S16384x128, .f32⟩
  | 62 => ⟨S1x128, .f32⟩
  | 63 => ⟨S16384x128, .f32⟩
  | 64 => ⟨S16384x128, .f32⟩
  | 65 => ⟨S_, .f32⟩
  | 66 => ⟨S16384x128, .f32⟩
  | 67 => ⟨S16384x128, .f32⟩
  | 68 => ⟨S16384x128, .f32⟩
  | 69 => ⟨S_, .f32⟩
  | 70 => ⟨S1064960, .f32⟩
  | 71 => ⟨S_, .f32⟩
  | 72 => ⟨S16384, .f32⟩
  | 73 => ⟨S1064960x1, .i32⟩
  | 74 => ⟨S16384, .f32⟩
  | 75 => ⟨S_, .f32⟩
  | 76 => ⟨S16384, .f32⟩
  | 77 => ⟨S16384, .i1⟩
  | 78 => ⟨S16384, .f32⟩
  | 79 => ⟨S_, .f32⟩
  | 80 => ⟨S16384, .f32⟩
  | 81 => ⟨S16384, .f32⟩
  | 82 => ⟨S_, .i32⟩
  | 83 => ⟨S1064960, .i32⟩
  | 84 => ⟨S1064960, .i1⟩
  | 85 => ⟨S_, .i32⟩
  | 86 => ⟨S1064960, .i32⟩
  | 87 => ⟨S1064960, .i32⟩
  | 88 => ⟨S1064960, .i32⟩
  | 89 => ⟨S1064960x1, .i32⟩
  | 90 => ⟨S1064960, .f32⟩
  | 91 => ⟨S_, .i32⟩
  | 92 => ⟨S1064960, .i32⟩
  | 93 => ⟨S1064960, .i1⟩
  | 94 => ⟨S_, .i32⟩
  | 95 => ⟨S1064960, .i32⟩
  | 96 => ⟨S1064960, .i32⟩
  | 97 => ⟨S1064960, .i32⟩
  | 98 => ⟨S1064960x1, .i32⟩
  | 99 => ⟨S1064960, .f32⟩
  | 100 => ⟨S1064960, .f32⟩
  | 101 => ⟨S_, .i32⟩
  | 102 => ⟨S1064960, .i32⟩
  | 103 => ⟨S1064960, .i1⟩
  | 104 => ⟨S_, .i32⟩
  | 105 => ⟨S1064960, .i32⟩
  | 106 => ⟨S1064960, .i32⟩
  | 107 => ⟨S1064960, .i32⟩
  | 108 => ⟨S1064960x1, .i32⟩
  | 109 => ⟨S1064960x128, .f32⟩
  | 110 => ⟨S1064960x1, .f32⟩
  | 111 => ⟨S1064960x128, .f32⟩
  | 112 => ⟨S1064960x128, .f32⟩
  | 113 => ⟨S_, .f32⟩
  | 114 => ⟨S16384x128, .f32⟩
  | 115 => ⟨S1064960x1, .i32⟩
  | 116 => ⟨S16384x128, .f32⟩
  | 117 => ⟨S1x128, .f32⟩
  | 118 => ⟨S16384x128, .f32⟩
  | 119 => ⟨S16384x128, .f32⟩
  | 120 => ⟨S1x1048576, .i32⟩
  | 121 => ⟨S1048576, .i32⟩
  | 122 => ⟨S_, .i32⟩
  | 123 => ⟨S1048576, .i32⟩
  | 124 => ⟨S1048576, .i1⟩
  | 125 => ⟨S_, .i32⟩
  | 126 => ⟨S1048576, .i32⟩
  | 127 => ⟨S1048576, .i32⟩
  | _ => ⟨S16384x16384, .f32⟩

abbrev hbmTy0_1 (i : Nat) : BufTy := match i % 128 with
  | 0 => ⟨S1048576, .i32⟩
  | 1 => ⟨S1048576x1, .i32⟩
  | 2 => ⟨S1048576x128, .f32⟩
  | 3 => ⟨S1x1048576, .i32⟩
  | 4 => ⟨S1048576, .i32⟩
  | 5 => ⟨S_, .i32⟩
  | 6 => ⟨S1048576, .i32⟩
  | 7 => ⟨S1048576, .i1⟩
  | 8 => ⟨S_, .i32⟩
  | 9 => ⟨S1048576, .i32⟩
  | 10 => ⟨S1048576, .i32⟩
  | 11 => ⟨S1048576, .i32⟩
  | 12 => ⟨S1048576x1, .i32⟩
  | 13 => ⟨S1048576x128, .f32⟩
  | 14 => ⟨S1048576x128, .f32⟩
  | 15 => ⟨S_, .f32⟩
  | 16 => ⟨S1048576, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_20 : Ref sig .tc := ⟨.hbm, 122, rfl⟩
abbrev main_v92 : Ref sig .tc := ⟨.hbm, 123, rfl⟩
abbrev main_v93 : Ref sig .tc := ⟨.hbm, 124, rfl⟩
abbrev main_c_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_22 : Ref sig .tc := ⟨.hbm, 133, rfl⟩
abbrev main_v101 : Ref sig .tc := ⟨.hbm, 134, rfl⟩
abbrev main_v102 : Ref sig .tc := ⟨.hbm, 135, rfl⟩
abbrev main_c_23 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_24 : Ref sig .tc := ⟨.hbm, 143, rfl⟩
abbrev main_v109 : Ref sig .tc := ⟨.hbm, 144, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S16384_S1064960_d0 : Shape.Concatenates [S1048576, S16384] S1064960 0
  slices_S2x1048576_S1x1048576_1_0 : S2x1048576.Slices ![1, 0] S1x1048576
  bcast_S_S1064960 : S_.BroadcastsInDim S1064960 (![] : Fin 0 → Fin S1064960.rank)
  bcast_S_S16384 : S_.BroadcastsInDim S16384 (![] : Fin 0 → Fin S16384.rank)
  bcast_S1064960_S1064960x1_0 : S1064960.BroadcastsInDim S1064960x1 (![0] : Fin 1 → Fin S1064960x1.rank)
  bcast_S1064960x1_S1064960x128_0_1 : S1064960x1.BroadcastsInDim S1064960x128 (![0, 1] : Fin 2 → Fin S1064960x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1048576x128_S1048576_d1 : S1048576x128.ReducesTo [1] S1048576
  h_S_ : 0 < S_.numel
  dot_S16384x16384_S16384x128_S16384x128_1_0_0_1_n_n_wf : DotDims.WF S16384x16384 S16384x128 S16384x128 [1] [0] [0] [1] [] []
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  gather_S16384x128_S1064960x1_S1064960x128_1_0_n_n_0_1_1128_wf : GatherDims.WF S16384x128 S1064960x1 S1064960x128 [1] [0] [] [0] [] 1 ![1, 128]
  scatter_S16384x128_S1064960x1_S1064960x128_1_0_0_1_wf : ScatterDims.WF S16384x128 S1064960x1 S1064960x128 [1] [0] [0] 1
  dot_S16384x128_S128x128_S16384x128_1_0_0_1_n_n_wf : DotDims.WF S16384x128 S128x128 S16384x128 [1] [0] [0] [1] [] []
  gather_S16384x128_S1048576x1_S1048576x128_1_0_n_n_0_1_1128_wf : GatherDims.WF S16384x128 S1048576x1 S1048576x128 [1] [0] [] [0] [] 1 ![1, 128]

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def gather_S16384x128_S1064960x1_S1064960x128_1_0_n_n_0_1_1128 : GatherDims S16384x128 S1064960x1 S1064960x128 where
  offsetDims := [1]
  collapsedSliceDims := [0]
  operandBatchingDims := []
  startIndicesBatchingDims := []
  startIndexMap := [0]
  indexVectorDim := 1
  sliceSizes := ![1, 128]
  wf := gather_S16384x128_S1064960x1_S1064960x128_1_0_n_n_0_1_1128_wf
def scatter_S16384x128_S1064960x1_S1064960x128_1_0_0_1 : ScatterDims S16384x128 S1064960x1 S1064960x128 where
  updateWindowDims := [1]
  insertedWindowDims := [0]
  scatterDimsToOperandDims := [0]
  indexVectorDim := 1
  wf := scatter_S16384x128_S1064960x1_S1064960x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf

class Facts : Prop extends Facts₀ where

variable [Facts]
-- ==== Proof.Kernel.FirstCases.lean ====
/-
  The first product, x·W1 over f32[16384,16384]×f32[16384,128], runs on a grid of 8 row blocks by 16 blocks of
  the contraction index. At a grid point (i, k) the body clears its accumulator when k = 0, adds the product of
  the point's [2048,1024] block of x with its [1024,128] block of W1, and copies the accumulator into the
  output block when k = 15. This file fixes the two conditions in closed form over the linear point number
  t = 16·i + k, says where the output block is idle, and names the buffers the body is handed.
-/
import proofs.«169783_j66494683676774_1_alg».proof.Proof.Gen.Kernel.Launch
import proofs.«169783_j66494683676774_1_alg».proof.Proof.Gen.Kernel.Skeleton
import proofs.«169783_j66494683676774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the first product's body -/

/-- "k = 0": the accumulator is cleared. -/
abbrev firstK (i : grid0.Coords) : Prop :=
  (Scalar.cmpi .ne (Scalar.extui (Scalar.cmpi .eq (BitVec.ofNat 32 (i 1).val) 0#32)) 0#32) = 1#1
/-- It holds exactly at the points t ≡ 0 (mod 16). -/
theorem firstK_iff : ∀ t : Fin cfg0.N, firstK (grid0.coords t) ↔ t.val % 16 = 0 :=
  (by decide +kernel : ∀ t : Fin grid0.N, firstK (grid0.coords t) ↔ t.val % 16 = 0)

/-- "k = 15": the accumulator is copied out. -/
abbrev lastK (i : grid0.Coords) : Prop := k0_cond2 i = 1#1
/-- It holds exactly at the points t ≡ 15 (mod 16). -/
theorem lastK_iff : ∀ t : Fin cfg0.N, lastK (grid0.coords t) ↔ t.val % 16 = 15 :=
  (by decide +kernel : ∀ t : Fin grid0.N, lastK (grid0.coords t) ↔ t.val % 16 = 15)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Where k ≠ 15 nothing is stored into the output block: it is idle there, -/
theorem idle0_2 : ∀ t : Fin cfg0.N, ¬lastK (grid0.coords t) → cfg0.idle 2 (grid0.coords t) = true := by decide +kernel
/-- and not written back. -/
theorem noFlush0_2 : ∀ t : Fin cfg0.N, ¬lastK (grid0.coords t) → (cfg0.win 2).flush t = false := by decide +kernel
/-- Where k = 15 it is live. -/
theorem live0_2 : ∀ t : Fin cfg0.N, lastK (grid0.coords t) → cfg0.idle 2 (grid0.coords t) = false := by decide +kernel

/-! ## The buffers the body is handed at a point -/

abbrev mx0 (t : Fin cfg0.N) : Memref sig .tc .vmem S2048x1024 .f32 := win0_0.stage (cfg0.slots t 0)
abbrev hx0 (t : Fin cfg0.N) : (mx0 t).IsWhole := hstage0_0 ((cfg0.slots t 0).cast nbuf0_0)
abbrev mw0 (t : Fin cfg0.N) : Memref sig .tc .vmem S1024x128 .f32 := win0_1.stage (cfg0.slots t 1)
abbrev hw0 (t : Fin cfg0.N) : (mw0 t).IsWhole := hstage0_1 ((cfg0.slots t 1).cast nbuf0_1)
abbrev mo0 (t : Fin cfg0.N) : Memref sig .tc .vmem S2048x128 .f32 := win0_2.stage (cfg0.slots t 2)
abbrev ho0 (t : Fin cfg0.N) : (mo0 t).IsWhole := hstage0_2 ((cfg0.slots t 2).cast nbuf0_2)
/-- The accumulator: a whole buffer of the kernel's own. -/
abbrev acc0 : Memref sig .tc .vmem S2048x128 .f32 := Memref.whole cc0_scratch0
/-- The views through which the output block's and the accumulator's contents are stated. -/
abbrev accV0 : View sig .tc .vmem S2048x128 .f32 := acc0.view
abbrev outV0 : View sig .tc .vmem S2048x128 .f32 := (Memref.whole cc0_stg2_0 : Memref sig .tc .vmem S2048x128 .f32).view

/-- The second product's scoped buffers, which the first product's body never touches: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the pipeline keeps for the body beside the windows: the accumulator at some contents, those other
    buffers, and the generator register at some state. -/
theorem rest0_eq (c : Dev nD) :
    (Pipeline.ΦA spec0 c : sProp 𝕄)
      = iprop(((∃ d, owns (c : Thread nD τ) acc0 fullShare d) ∗ others0 c) ∗ (∃ r, prngReg c r)) := by
  unfold Pipeline.ΦA; rw [scopedRest0_eq]; simp only [acc0, owns_whole, others0]; try rfl

end Cert.Kernel.Hand

end
-- ==== Proof.Kernel.FirstRunA.lean ====
/-
  The first product's body at a point with k = 0 (and k ≠ 15): it clears the accumulator, then adds the block
  product to it; the output block is left as it was found. What the accumulator ends with is found by running
  the body: its stores as a list of pieces, newest first.
-/
import proofs.«169783_j66494683676774_1_alg».proof.Proof.Kernel.FirstCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def firstRunA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) :
    Σ' (L2 : List (View.Piece (Elt F) S2048x128 .f32)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__dense_matmul_kernel i arg2 harg2 arg3 harg3 arg4 harg4 arg5 harg5) K } := by
  refine ⟨[], ?_, fun xi2 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.Kernel.FirstRunB.lean ====
/-
  The first product's body at a point with 0 < k < 15: it adds the block product to the accumulator, which holds
  what the point before left; the output block is left as it was found.
-/
import proofs.«169783_j66494683676774_1_alg».proof.Proof.Kernel.FirstRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def firstRunB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) :
    Σ' (L2 : List (View.Piece (Elt F) S2048x128 .f32)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__dense_matmul_kernel i arg2 harg2 arg3 harg3 arg4 harg4 arg5 harg5) K } := by
  refine ⟨[], ?_, fun xi2 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.Kernel.FirstRunC.lean ====
/-
  The first product's body at a point with k = 15: it adds the last block product to the accumulator and copies
  the accumulator into the output block.
-/
import proofs.«169783_j66494683676774_1_alg».proof.Proof.Kernel.FirstRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def firstRunC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) :
    Σ' (L2 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__dense_matmul_kernel i arg2 harg2 arg3 harg3 arg4 harg4 arg5 harg5) K } := by
  refine ⟨?_, ?_, fun E K => ?run⟩
  case run =>
    simp only [cc0__dense_matmul_kernel_eq_skeleton]; unfold cc0__dense_matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.Kernel.FirstData.lean ====
/-
  The first product, x·W1, as the pipeline sees it: the blocks of x and W1 a grid point is handed, what the
  output block and the accumulator hold after each point (a recursion over the point number: the accumulator
  restarts where k = 0 and otherwise continues from the point before), the invariant that carries the
  accumulator from one point to the next, and the body's obligation at every point.
-/
import proofs.«169783_j66494683676774_1_alg».proof.Proof.Kernel.FirstRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the first product is entered
variable (V : (c : Dev nD) → (b : Ref sig .tc) → Buf (Elt F) ((c : Thread nD τ).loc b))

/-! ## The blocks a point is handed -/

/-- Window `w`'s block at point `t`, read off its array as the product finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x holds the point's block of x at every point, -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- and the staging buffer of W1 the point's block of W1. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What each case leaves -/

/-- Nothing is stored into the output block in this case; the term below is a placeholder nothing consults (the block is
    neither written back nor read at the next point). -/
def outA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) : Vec F S2048x128 .f32 :=
  outV0.read (Elt F) (outV0.writes (Elt F) outV0.junk (firstRunA c i arg2 harg2 arg3 harg3 arg4 harg4 arg5 harg5 hc0 hc1 x0 x1).1)

/-- The stores into the accumulator cover it. -/
theorem accCoverA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) (y : S2048x128.Idx) :
    ∃ pc ∈ (firstRunA c i arg2 harg2 arg3 harg3 arg4 harg4 arg5 harg5 hc0 hc1 x0 x1).2.1, y ∈ pc.1.set :=
  View.cover_of_tiledL (firstRunA c i arg2 harg2 arg3 harg3 arg4 harg4 arg5 harg5 hc0 hc1 x0 x1).2.1 S2048x128.size (by sl_kernel_rfl) y
/-- What the accumulator holds after the body: its pieces read back. -/
def accA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) : Vec F S2048x128 .f32 :=
  accV0.read (Elt F) (accV0.writes (Elt F) accV0.junk (firstRunA c i arg2 harg2 arg3 harg3 arg4 harg4 arg5 harg5 hc0 hc1 x0 x1).2.1)

/-- Nothing is stored into the output block in this case; the term below is a placeholder nothing consults (the block is
    neither written back nor read at the next point). -/
def outB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) : Vec F S2048x128 .f32 :=
  outV0.read (Elt F) (outV0.writes (Elt F) outV0.junk (firstRunB c i arg2 harg2 arg3 harg3 arg4 harg4 arg5 harg5 hc0 hc1 x0 x1 xs).1)

/-- The stores into the accumulator cover it. -/
theorem accCoverB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) (y : S2048x128.Idx) :
    ∃ pc ∈ (firstRunB c i arg2 harg2 arg3 harg3 arg4 harg4 arg5 harg5 hc0 hc1 x0 x1 xs).2.1, y ∈ pc.1.set :=
  View.cover_of_tiledL (firstRunB c i arg2 harg2 arg3 harg3 arg4 harg4 arg5 harg5 hc0 hc1 x0 x1 xs).2.1 S2048x128.size (by sl_kernel_rfl) y
/-- What the accumulator holds after the body: its pieces read back. -/
def accB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) : Vec F S2048x128 .f32 :=
  accV0.read (Elt F) (accV0.writes (Elt F) accV0.junk (firstRunB c i arg2 harg2 arg3 harg3 arg4 harg4 arg5 harg5 hc0 hc1 x0 x1 xs).2.1)

/-- At k = 15 the one store into the output block covers it. -/
theorem outCoverC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) (y : S2048x128.Idx) :
    ∃ pc ∈ (firstRunC c i arg2 harg2 arg3 harg3 arg4 harg4 arg5 harg5 hc0 hc1 x0 x1 xs).1, y ∈ pc.1.set :=
  View.cover_of_tiledL (firstRunC c i arg2 harg2 arg3 harg3 arg4 harg4 arg5 harg5 hc0 hc1 x0 x1 xs).1 S2048x128.size (by sl_kernel_rfl) y
/-- What the output block holds after the body at k = 15: its pieces read back. -/
def outC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) : Vec F S2048x128 .f32 :=
  outV0.read (Elt F) (outV0.writes (Elt F) outV0.junk (firstRunC c i arg2 harg2 arg3 harg3 arg4 harg4 arg5 harg5 hc0 hc1 x0 x1 xs).1)

/-- The stores into the accumulator cover it. -/
theorem accCoverC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) (y : S2048x128.Idx) :
    ∃ pc ∈ (firstRunC c i arg2 harg2 arg3 harg3 arg4 harg4 arg5 harg5 hc0 hc1 x0 x1 xs).2.1, y ∈ pc.1.set :=
  View.cover_of_tiledL (firstRunC c i arg2 harg2 arg3 harg3 arg4 harg4 arg5 harg5 hc0 hc1 x0 x1 xs).2.1 S2048x128.size (by sl_kernel_rfl) y
/-- What the accumulator holds after the body: its pieces read back. -/
def accC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) : Vec F S2048x128 .f32 :=
  accV0.read (Elt F) (accV0.writes (Elt F) accV0.junk (firstRunC c i arg2 harg2 arg3 harg3 arg4 harg4 arg5 harg5 hc0 hc1 x0 x1 xs).2.1)

/-! ## What the output block and the accumulator hold after each point -/

/-- The accumulation, by recursion on the point number: after point `n` the pair (output block, accumulator) is what
    the case of `n` leaves — at k = 0 from the point's blocks alone, otherwise from the accumulator the point before left. -/
def outsAt0 (c : Dev nD) : (n : ℕ) → n < cfg0.N → Vec F S2048x128 .f32 × Vec F S2048x128 .f32
  | 0, hn => (outA c (grid0.coords ⟨0, hn⟩) (mx0 ⟨0, hn⟩) (hx0 ⟨0, hn⟩) (mw0 ⟨0, hn⟩) (hw0 ⟨0, hn⟩) (mo0 ⟨0, hn⟩) (ho0 ⟨0, hn⟩) acc0 (Memref.isWhole_whole _) ((firstK_iff ⟨0, hn⟩).mpr (Nat.zero_mod _)) (fun h => (fun h => by (try dsimp only at h); omega) ((lastK_iff ⟨0, hn⟩).mp h)) (blk0 V c 0 ⟨0, hn⟩) (blk0 V c 1 ⟨0, hn⟩), accA c (grid0.coords ⟨0, hn⟩) (mx0 ⟨0, hn⟩) (hx0 ⟨0, hn⟩) (mw0 ⟨0, hn⟩) (hw0 ⟨0, hn⟩) (mo0 ⟨0, hn⟩) (ho0 ⟨0, hn⟩) acc0 (Memref.isWhole_whole _) ((firstK_iff ⟨0, hn⟩).mpr (Nat.zero_mod _)) (fun h => (fun h => by (try dsimp only at h); omega) ((lastK_iff ⟨0, hn⟩).mp h)) (blk0 V c 0 ⟨0, hn⟩) (blk0 V c 1 ⟨0, hn⟩))
  | n + 1, hn =>
    if h0 : (n + 1) % 16 = 0 then
      if h1 : (n + 1) % 16 = 15 then
        False.elim (by omega)
      else
        (outA c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) ((firstK_iff ⟨n + 1, hn⟩).mpr h0) (fun h => h1 ((lastK_iff ⟨n + 1, hn⟩).mp h)) (blk0 V c 0 ⟨n + 1, hn⟩) (blk0 V c 1 ⟨n + 1, hn⟩), accA c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) ((firstK_iff ⟨n + 1, hn⟩).mpr h0) (fun h => h1 ((lastK_iff ⟨n + 1, hn⟩).mp h)) (blk0 V c 0 ⟨n + 1, hn⟩) (blk0 V c 1 ⟨n + 1, hn⟩))
    else
      if h1 : (n + 1) % 16 = 15 then
        (outC c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) ((lastK_iff ⟨n + 1, hn⟩).mpr h1) (blk0 V c 0 ⟨n + 1, hn⟩) (blk0 V c 1 ⟨n + 1, hn⟩) (outsAt0 c n (Nat.lt_of_succ_lt hn)).2, accC c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) ((lastK_iff ⟨n + 1, hn⟩).mpr h1) (blk0 V c 0 ⟨n + 1, hn⟩) (blk0 V c 1 ⟨n + 1, hn⟩) (outsAt0 c n (Nat.lt_of_succ_lt hn)).2)
      else
        (outB c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) (fun h => h1 ((lastK_iff ⟨n + 1, hn⟩).mp h)) (blk0 V c 0 ⟨n + 1, hn⟩) (blk0 V c 1 ⟨n + 1, hn⟩) (outsAt0 c n (Nat.lt_of_succ_lt hn)).2, accB c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) (fun h => h1 ((lastK_iff ⟨n + 1, hn⟩).mp h)) (blk0 V c 0 ⟨n + 1, hn⟩) (blk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (outA c (grid0.coords t) (mx0 t) (hx0 t) (mw0 t) (hw0 t) (mo0 t) (ho0 t) acc0 (Memref.isWhole_whole _) ((firstK_iff t).mpr h0) (fun h => h1 ((lastK_iff t).mp h)) (blk0 V c 0 t) (blk0 V c 1 t), accA c (grid0.coords t) (mx0 t) (hx0 t) (mw0 t) (hw0 t) (mo0 t) (ho0 t) acc0 (Memref.isWhole_whole _) ((firstK_iff t).mpr h0) (fun h => h1 ((lastK_iff t).mp h)) (blk0 V c 0 t) (blk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (outB c (grid0.coords t) (mx0 t) (hx0 t) (mw0 t) (hw0 t) (mo0 t) (ho0 t) acc0 (Memref.isWhole_whole _) (fun h => h0 ((firstK_iff t).mp h)) (fun h => h1 ((lastK_iff t).mp h)) (blk0 V c 0 t) (blk0 V c 1 t) (outsAt0 V c (t.val - 1) (Nat.lt_of_le_of_lt (Nat.sub_le _ _) t.isLt)).2, accB c (grid0.coords t) (mx0 t) (hx0 t) (mw0 t) (hw0 t) (mo0 t) (ho0 t) acc0 (Memref.isWhole_whole _) (fun h => h0 ((firstK_iff t).mp h)) (fun h => h1 ((lastK_iff t).mp h)) (blk0 V c 0 t) (blk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (outC c (grid0.coords t) (mx0 t) (hx0 t) (mw0 t) (hw0 t) (mo0 t) (ho0 t) acc0 (Memref.isWhole_whole _) (fun h => h0 ((firstK_iff t).mp h)) ((lastK_iff t).mpr h1) (blk0 V c 0 t) (blk0 V c 1 t) (outsAt0 V c (t.val - 1) (Nat.lt_of_le_of_lt (Nat.sub_le _ _) t.isLt)).2, accC c (grid0.coords t) (mx0 t) (hx0 t) (mw0 t) (hw0 t) (mo0 t) (ho0 t) acc0 (Memref.isWhole_whole _) (fun h => h0 ((firstK_iff t).mp h)) ((lastK_iff t).mpr h1) (blk0 V c 0 t) (blk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start whatever the pipeline keeps (the accumulator at anything); afterwards the
    accumulator at what point `n - 1` left, the other product's buffers at anything, the generator register at some state. -/
def inv0 (c : Dev nD) : (n : ℕ) → n ≤ cfg0.N → sProp 𝕄
  | 0, _ => Pipeline.ΦA spec0 c
  | n + 1, hn => iprop((owns (c : Thread nD τ) acc0 fullShare ((outsAt0 V c n hn).2) ∗ others0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop((owns (c : Thread nD τ) acc0 fullShare ((outsAt0 V c n hn).2) ∗ others0 c) ∗ (∃ r, prngReg c r)) := rfl

theorem inv0_pos (c : Dev nD) (n : ℕ) (h : n ≤ cfg0.N) (hz : n ≠ 0) :
    inv0 V c n h = iprop((owns (c : Thread nD τ) acc0 fullShare ((outsAt0 V c (n - 1) (by omega)).2) ∗ others0 c) ∗ (∃ r, prngReg c r)) := by
  cases n with
  | zero => exact absurd rfl hz
  | succ n => rfl

/-! ## The pipeline's proof data -/

/-- The arrays as the product finds them; after the body each input's buffer at its block, the output's at
    `outsAt0`'s first component; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (outsAt0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mx0 t) fullShare ((dat0 V c).before 0 t d))
    ∗ (∃ d, owns (c : Thread nD τ) (mw0 t) fullShare ((dat0 V c).before 1 t d))
    ∗ (∃ d, owns (c : Thread nD τ) (mo0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms of the two conditions say which
    case the point is in; the invariant hands the body the accumulator at what the point before left (at anything
    where k = 0) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  have hN : t.val < 128 := lt_of_lt_of_eq t.isLt (show cfg0.N = 128 from N_0)
  rw [show (dat0 V c).leavesExact 0 t = owns (c : Thread nD τ) (mx0 t) fullShare ((dat0 V c).after 0 t) from by
    unfold Dat.leavesExact; rw [live0_0 t], after0_0]
  rw [show (dat0 V c).leavesExact 1 t = owns (c : Thread nD τ) (mw0 t) fullShare ((dat0 V c).after 1 t) from by
    unfold Dat.leavesExact; rw [live0_1 t], after0_1]
  by_cases h0 : t.val % 16 = 0
  · by_cases h1 : t.val % 16 = 15
    · exfalso; omega
    · rw [Dat.leavesExact_idle (dat0 V c) 2 t (idle0_2 t (fun h => h1 ((lastK_iff t).mp h))) (noFlush0_2 t (fun h => h1 ((lastK_iff t).mp h)))]
      rw [outsAt0_A V c t h0 h1]
      unfold accA; (try dsimp only)
      by_cases hz : t.val = 0
      · rw [inv0_castSucc V c t, inv0_zero V c _ _ hz, rest0_eq]
        iintro ⟨⟨⟨HS, Hoth⟩, Hg⟩, Ho, ⟨%d0, H0⟩, ⟨%d1, H1⟩, ⟨%d2, H2⟩⟩
        iapply ((firstRunA c (grid0.coords t) _ _ _ _ _ _ _ _ ((firstK_iff t).mpr h0) (fun h => h1 ((lastK_iff t).mp h)) (blk0 V c 0 t) (blk0 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverA c _ _ _ _ _ _ _ _ _ _ _ _ _)
            iexact Hoth
          iexact Hg
        isplitl [Ho]; · iexact Ho
        isplitl [H0]; · iexact H0
        isplitl [H1]; · iexact H1
        iexists _; iexact H2
      · rw [inv0_castSucc V c t, inv0_pos V c _ _ hz]
        iintro ⟨⟨⟨HS, Hoth⟩, Hg⟩, Ho, ⟨%d0, H0⟩, ⟨%d1, H1⟩, ⟨%d2, H2⟩⟩
        iapply ((firstRunA c (grid0.coords t) _ _ _ _ _ _ _ _ ((firstK_iff t).mpr h0) (fun h => h1 ((lastK_iff t).mp h)) (blk0 V c 0 t) (blk0 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverA c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun hz => h0 (by rw [hz])
    by_cases h1 : t.val % 16 = 15
    · rw [show (dat0 V c).leavesExact 2 t = owns (c : Thread nD τ) (mo0 t) fullShare ((dat0 V c).after 2 t) from by
        unfold Dat.leavesExact; rw [live0_2 t ((lastK_iff t).mpr h1)], after0_2]
      rw [outsAt0_C V c t h0 h1]
      unfold outC accC; (try dsimp only)
      rw [inv0_castSucc V c t, inv0_pos V c _ _ hz]
      iintro ⟨⟨⟨HS, Hoth⟩, Hg⟩, Ho, ⟨%d0, H0⟩, ⟨%d1, H1⟩, ⟨%d2, H2⟩⟩
      iapply ((firstRunC c (grid0.coords t) _ _ _ _ _ _ _ _ (fun h => h0 ((firstK_iff t).mp h)) ((lastK_iff t).mpr h1) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverC c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC c _ _ _ _ _ _ _ _ _ _ _ _ _ _)
    · rw [Dat.leavesExact_idle (dat0 V c) 2 t (idle0_2 t (fun h => h1 ((lastK_iff t).mp h))) (noFlush0_2 t (fun h => h1 ((lastK_iff t).mp h)))]
      rw [outsAt0_B V c t h0 h1]
      unfold accB; (try dsimp only)
      rw [inv0_castSucc V c t, inv0_pos V c _ _ hz]
      iintro ⟨⟨⟨HS, Hoth⟩, Hg⟩, Ho, ⟨%d0, H0⟩, ⟨%d1, H1⟩, ⟨%d2, H2⟩⟩
      iapply ((firstRunB c (grid0.coords t) _ _ _ _ _ _ _ _ (fun h => h0 ((firstK_iff t).mp h)) (fun h => h1 ((lastK_iff t).mp h)) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accCoverB c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the pipeline hands the product is the invariant before the first point. -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives it back: the accumulator's contents are forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), rest0_eq]
  iintro ⟨⟨HS, Hoth⟩, Hg⟩
  isplitl [HS Hoth]
  · isplitl [HS]
    · iexists _; iexact HS
    iexact Hoth
  iexact Hg

end Cert.Kernel.Hand

end
-- ==== Proof.Kernel.SecondRun.lean ====
/-
  The second product, h·W2 over f32[16384,128]×f32[128,128], runs on a grid of 4 row blocks with the whole
  contraction in one step: at every point k = 0 is both the first and the last step, so the body clears its
  accumulator, adds the product of the point's [4096,128] block of h with W2, and copies the accumulator into
  the output block. This file fixes the two conditions (true at every point), names the buffers, and runs the body.
-/
import proofs.«169783_j66494683676774_1_alg».proof.Proof.Gen.Kernel.Launch
import proofs.«169783_j66494683676774_1_alg».proof.Proof.Gen.Kernel.Skeleton
import proofs.«169783_j66494683676774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "k = 0", as the body computes it to clear the accumulator, -/
abbrev onlyK (i : grid1.Coords) : Prop :=
  (Scalar.cmpi .ne (Scalar.extui (Scalar.cmpi .eq (BitVec.ofNat 32 (i 1).val) 0#32)) 0#32) = 1#1
/-- and as it computes it to copy the accumulator out. -/
abbrev onlyK' (i : grid1.Coords) : Prop := k1_cond2 i = 1#1
/-- Both hold at every point: the contraction axis of the grid has one step. -/
theorem onlyK_all : ∀ t : Fin cfg1.N, onlyK (grid1.coords t) :=
  (by decide +kernel : ∀ t : Fin grid1.N, onlyK (grid1.coords t))
theorem onlyK'_all : ∀ t : Fin cfg1.N, onlyK' (grid1.coords t) :=
  (by decide +kernel : ∀ t : Fin grid1.N, onlyK' (grid1.coords t))

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

abbrev mx1 (t : Fin cfg1.N) : Memref sig .tc .vmem S4096x128 .f32 := win1_0.stage (cfg1.slots t 0)
abbrev hx1 (t : Fin cfg1.N) : (mx1 t).IsWhole := hstage1_0 ((cfg1.slots t 0).cast nbuf1_0)
abbrev mw1 (t : Fin cfg1.N) : Memref sig .tc .vmem S128x128 .f32 := win1_1.stage (cfg1.slots t 1)
abbrev hw1 (t : Fin cfg1.N) : (mw1 t).IsWhole := hstage1_1 ((cfg1.slots t 1).cast nbuf1_1)
abbrev mo1 (t : Fin cfg1.N) : Memref sig .tc .vmem S4096x128 .f32 := win1_2.stage (cfg1.slots t 2)
abbrev ho1 (t : Fin cfg1.N) : (mo1 t).IsWhole := hstage1_2 ((cfg1.slots t 2).cast nbuf1_2)
abbrev acc1 : Memref sig .tc .vmem S4096x128 .f32 := Memref.whole cc1_scratch0
abbrev outV1 : View sig .tc .vmem S4096x128 .f32 := (Memref.whole cc1_stg2_0 : Memref sig .tc .vmem S4096x128 .f32).view

/-- What the pipeline keeps for the body beside the windows: the first product's scoped buffers, the accumulator at
    some contents, and the generator register at some state. -/
theorem rest1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) acc1 fullShare d)) ∗ (∃ r, prngReg c r)) := by
  unfold Pipeline.ΦA; rw [scopedRest1_eq]; simp only [acc1, owns_whole]; try rfl

set_option maxHeartbeats 1000000 in
/-- The body on whole buffers: the inputs at their contents, the output block and the accumulator at anything; it
    ends with the inputs as they were and the pieces its stores wrote in the other two. -/
noncomputable def secondRun (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) :
    Σ' (L2 : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__dense_matmul_kernel i arg2 harg2 arg3 harg3 arg4 harg4 arg5 harg5) K } := by
  refine ⟨?_, ?_, fun E K => ?run⟩
  case run =>
    simp only [cc1__dense_matmul_kernel_eq_skeleton]; unfold cc1__dense_matmul_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.Kernel.SecondData.lean ====
/-
  The second product, h·W2, as the pipeline sees it: the blocks a grid point is handed, what the output block
  holds after the point (the body's one case), and the body's obligation at every point. Nothing is carried from
  one point to the next: the accumulator is cleared at every point.
-/
import proofs.«169783_j66494683676774_1_alg».proof.Proof.Kernel.SecondRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the second product is entered
variable (V : (c : Dev nD) → (b : Ref sig .tc) → Buf (Elt F) ((c : Thread nD τ).loc b))

/-- Window `w`'s block at point `t`, read off its array as the product finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of h holds the point's block of h at every point, -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- and the staging buffer of W2 holds W2, fetched at the first point and kept. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The one store into the output block covers it. -/
theorem outCover1 (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) (y : S4096x128.Idx) :
    ∃ pc ∈ (secondRun c i arg2 harg2 arg3 harg3 arg4 harg4 arg5 harg5 hc0 hc1 x0 x1).1, y ∈ pc.1.set :=
  View.cover_of_tiledL (secondRun c i arg2 harg2 arg3 harg3 arg4 harg4 arg5 harg5 hc0 hc1 x0 x1).1 S4096x128.size (by sl_kernel_rfl) y
/-- What the output block holds after the body: its pieces read back. -/
def out1 (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) : Vec F S4096x128 .f32 :=
  outV1.read (Elt F) (outV1.writes (Elt F) outV1.junk (secondRun c i arg2 harg2 arg3 harg3 arg4 harg4 arg5 harg5 hc0 hc1 x0 x1).1)

/-- The output block after point `t`. -/
def outAt1 (c : Dev nD) (t : Fin cfg1.N) : Vec F S4096x128 .f32 :=
  out1 c (grid1.coords t) (mx1 t) (hx1 t) (mw1 t) (hw1 t) (mo1 t) (ho1 t) acc1 (Memref.isWhole_whole _) (onlyK_all t) (onlyK'_all t) (blk1 V c 0 t) (blk1 V c 1 t)

/-- The arrays as the product finds them; after the body each input's buffer at its block, the output's at `outAt1`;
    the invariant what the pipeline keeps; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (mx1 t) fullShare ((dat1 V c).before 0 t d))
    ∗ (∃ d, owns (c : Thread nD τ) (mw1 t) fullShare ((dat1 V c).before 1 t d))
    ∗ (∃ d, owns (c : Thread nD τ) (mo1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks, the accumulator is taken at anything and given back
    at anything, the output block ends at `outAt1`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl, rest1_eq]
  rw [show (dat1 V c).leavesExact 0 t = owns (c : Thread nD τ) (mx1 t) fullShare ((dat1 V c).after 0 t) from by
    unfold Dat.leavesExact; rw [live1_0 t], after1_0]
  rw [show (dat1 V c).leavesExact 1 t = owns (c : Thread nD τ) (mw1 t) fullShare ((dat1 V c).after 1 t) from by
    unfold Dat.leavesExact; rw [live1_1 t], after1_1]
  rw [show (dat1 V c).leavesExact 2 t = owns (c : Thread nD τ) (mo1 t) fullShare ((dat1 V c).after 2 t) from by
    unfold Dat.leavesExact; rw [live1_2 t], after1_2]
  unfold outAt1 out1; (try dsimp only)
  iintro ⟨⟨⟨B1, B2, B3, B4, B5, B6, B7, HS⟩, Hg⟩, Ho, ⟨%d0, H0⟩, ⟨%d1, H1⟩, ⟨%d2, H2⟩⟩
  iapply ((secondRun c (grid1.coords t) _ _ _ _ _ _ _ _ (onlyK_all t) (onlyK'_all t) (blk1 V c 0 t) (blk1 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [B1 B2 B3 B4 B5 B6 B7 HS Hg]
  · isplitl [B1 B2 B3 B4 B5 B6 B7 HS]
    · isplitl [B1]; · iexact B1
      isplitl [B2]; · iexact B2
      isplitl [B3]; · iexact B3
      isplitl [B4]; · iexact B4
      isplitl [B5]; · iexact B5
      isplitl [B6]; · iexact B6
      isplitl [B7]; · iexact B7
      unfold owns; iexists _; iexists _; isplitr
      swap; · iexact HS
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (outCover1 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.WholeRun.lean ====
/-
  The whole program as a run: host operations, the first product, host operations, the second product, host
  operations. The contents of the core's buffers are followed from the launch through these eight items; each
  product leaves its output array at what its write-backs fold to and every other buffer as it found it. Every
  weakly fair execution ends, and the final memory holds every unscoped buffer at the last of these contents:
  in particular each argument as launched.
-/
import proofs.«169783_j66494683676774_1_alg».proof.Proof.Kernel.FirstData
import proofs.«169783_j66494683676774_1_alg».proof.Proof.Kernel.SecondData
import proofs.«169783_j66494683676774_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- What the first product is entered with, read at the core's references. -/
abbrev E3 : (c : Dev nD) → (b : Ref sig .tc) → Buf (Elt F) ((c : Thread nD τ).loc b) := fun c b => W3 m c b
/-- After the first product: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the core's references. -/
abbrev X4 : (c : Dev nD) → (b : Ref sig .tc) → Buf (Elt F) ((c : Thread nD τ).loc b) := fun c b => W4 m c b
theorem W4_arrays (c : Dev nD) (w : Fin cfg0.W) : (dat0 (E3 m) c).arrAt w cfg0.N = X4 m c (Pipeline.arrRef spec0 w) :=
  (W4_arr m c w).symm
theorem W4_others (c : Dev nD) : ∀ b, b ∉ Finset.univ.image (Pipeline.arrRef spec0) → X4 m c b = E3 m c b :=
  fun b hb => W4_of_ne m c b fun w e => hb (Finset.mem_image.mpr ⟨w, Finset.mem_univ _, e⟩)
abbrev W5 : Dev nD → Valuation τ sig (Elt F) := fun c => StableHlo.after hostOps1 (W4 m c)
abbrev W6 : Dev nD → Valuation τ sig (Elt F) := fun c => StableHlo.after hostOps1_1 (W5 m c)
/-- What the second product is entered with. -/
abbrev E6 : (c : Dev nD) → (b : Ref sig .tc) → Buf (Elt F) ((c : Thread nD τ).loc b) := fun c b => W6 m c b
/-- After the second product. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the core's references. -/
abbrev X7 : (c : Dev nD) → (b : Ref sig .tc) → Buf (Elt F) ((c : Thread nD τ).loc b) := fun c b => W7 m c b
theorem W7_arrays (c : Dev nD) (w : Fin cfg1.W) : (dat1 (E6 m) c).arrAt w cfg1.N = X7 m c (Pipeline.arrRef spec1 w) :=
  (W7_arr m c w).symm
theorem W7_others (c : Dev nD) : ∀ b, b ∉ Finset.univ.image (Pipeline.arrRef spec1) → X7 m c b = E6 m c b :=
  fun b hb => W7_of_ne m c b fun w e => hb (Finset.mem_image.mpr ⟨w, Finset.mem_univ _, e⟩)
abbrev W8 : Dev nD → Valuation τ sig (Elt F) := fun c => StableHlo.after hostOps2 (W7 m c)

/-! ## No item writes an argument -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_1 _ hostOps1_1_writes (by decide)
    _ = W4 m c (Proc.devRef .tc main_arg0) := StableHlo.after_of_writes_sub hostOps1 _ hostOps1_writes (by decide)
    _ = W3 m c (Proc.devRef .tc main_arg0) := (W4_arr m c 0).trans (((dat0 (E3 m) c).arrAt_in 0 rfl _).trans (A_eq0 (E3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_1 _ hostOps1_1_writes (by decide)
    _ = W4 m c (Proc.devRef .tc main_arg1) := StableHlo.after_of_writes_sub hostOps1 _ hostOps1_writes (by decide)
    _ = W3 m c (Proc.devRef .tc main_arg1) := (W4_arr m c 1).trans (((dat0 (E3 m) c).arrAt_in 1 rfl _).trans (A_eq0 (E3 m) c 1))
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_1 _ hostOps1_1_writes (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide)
    _ = W6 m c (Proc.devRef .tc main_arg3) := (W7_arr m c 1).trans (((dat1 (E6 m) c).arrAt_in 1 rfl _).trans (A_eq1 (E6 m) c 1))
    _ = W5 m c (Proc.devRef .tc main_arg3) := StableHlo.after_of_writes_sub hostOps1_1 _ hostOps1_1_writes (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps2 _ hostOps2_writes (by decide)
    _ = W6 m c (Proc.devRef .tc main_arg4) := W7_of_ne m c main_arg4 (by decide)
    _ = W5 m c (Proc.devRef .tc main_arg4) := StableHlo.after_of_writes_sub hostOps1_1 _ hostOps1_1_writes (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps2 _ hostOps2_writes (by decide)
    _ = W6 m c (Proc.devRef .tc main_arg5) := W7_of_ne m c main_arg5 (by decide)
    _ = W5 m c (Proc.devRef .tc main_arg5) := StableHlo.after_of_writes_sub hostOps1_1 _ hostOps1_1_writes (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-! ## The proof data and the thread state -/

def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E6 m) c
abbrev noVariants : Variants := Variants.none
abbrev noPairs : GSem nD τ sig → Finset Unit := fun _ => ∅
abbrev noLevel : GSem nD τ sig → Unit → ℕ := fun _ _ => 0
/-- What rides beside the buffers through every item: the generator register at some state, and nothing owed. -/
abbrev carry (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carry
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (W8 m c) ∗ ∃ r, prngReg c r)

/-! ## The two products as items -/

set_option backward.isDefEq.respectTransparency.types false in
def region0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ noPairs noLevel 0 fun _ _ => rfl
  pre c := iprop(StableHlo.held (c : Thread nD τ) (Pipeline.ucRefs τ sig) (W3 m c) ∗ carry c)
  post c := iprop(StableHlo.held (c : Thread nD τ) (Pipeline.ucRefs τ sig) (W4 m c) ∗ carry c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (inv0_in (E3 m) c)
    unfold Pipeline.ΦA
    iintro ⟨Hp, -, Hr⟩
    isplitl [Hr]; · iexact Hr
    iexact Hp
  hout c := by
    rw [Pipeline.ownSems0_none]
    refine (inv0_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (X4 m c) ((pdats m 0 c).arrAt · cfg0.N) (W4_arrays m c) (W4_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ noPairs noLevel 1 fun _ _ => rfl
  pre c := iprop(StableHlo.held (c : Thread nD τ) (Pipeline.ucRefs τ sig) (W6 m c) ∗ carry c)
  post c := iprop(StableHlo.held (c : Thread nD τ) (Pipeline.ucRefs τ sig) (W7 m c) ∗ carry c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (X7 m c) ((pdats m 1 c).arrAt · cfg1.N) (W7_arrays m c) (W7_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

abbrev items : List (Pipeline.Seg (pcfgs (F := F)) adm (pdats m) () defs₀ noVariants noPairs noLevel) :=
  [ .host (hostItem hostOps0 hostOps0_sub hostOps0_fresh (W0 m)),
    .host (hostItem hostOps0_1 hostOps0_1_sub hostOps0_1_fresh (W1 m)),
    .host (hostItem hostOps0_2 hostOps0_2_sub hostOps0_2_fresh (W2 m)),
    .region (region0 m),
    .host (hostItem hostOps1 hostOps1_sub hostOps1_fresh (W4 m)),
    .host (hostItem hostOps1_1 hostOps1_1_sub hostOps1_1_fresh (W5 m)),
    .region (region1 m),
    .host (hostItem hostOps2 hostOps2_sub hostOps2_fresh (W7 m)) ]

theorem main_items (c : Dev nD) : main (F := F) c = Pipeline.Seg.run (items m) := (main_chain c).trans (by chain_rfl)

set_option backward.isDefEq.respectTransparency.types false in
/-- Every weakly fair execution of the program from memory `m` with zero counters terminates, nothing faulting, and the
    final memory holds every unscoped buffer at the contents `W8` followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ carry c)) (Tₙ := lastState m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ carry c)
        ⊢ iprop(lastState m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.Kernel.Hand

end
-- ==== Proof.KernelIdeal.FirstCases.lean ====
/-
  The first product, x·W1 over f32[16384,16384]×f32[16384,128], runs on a grid of 8 row blocks by 16 blocks of
  the contraction index. At a grid point (i, k) the body clears its accumulator when k = 0, adds the product of
  the point's [2048,1024] block of x with its [1024,128] block of W1, and copies the accumulator into the
  output block when k = 15. This file fixes the two conditions in closed form over the linear point number
  t = 16·i + k, says where the output block is idle, and names the buffers the body is handed.
-/
import proofs.«169783_j66494683676774_1_alg».proof.Proof.Gen.KernelIdeal.Launch
import proofs.«169783_j66494683676774_1_alg».proof.Proof.Gen.KernelIdeal.Skeleton
import proofs.«169783_j66494683676774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the first product's body -/

/-- "k = 0": the accumulator is cleared. -/
abbrev firstK (i : grid0.Coords) : Prop :=
  (Scalar.cmpi .ne (Scalar.extui (Scalar.cmpi .eq (BitVec.ofNat 32 (i 1).val) 0#32)) 0#32) = 1#1
/-- It holds exactly at the points t ≡ 0 (mod 16). -/
theorem firstK_iff : ∀ t : Fin cfg0.N, firstK (grid0.coords t) ↔ t.val % 16 = 0 :=
  (by decide +kernel : ∀ t : Fin grid0.N, firstK (grid0.coords t) ↔ t.val % 16 = 0)

/-- "k = 15": the accumulator is copied out. -/
abbrev lastK (i : grid0.Coords) : Prop := k0_cond2 i = 1#1
/-- It holds exactly at the points t ≡ 15 (mod 16). -/
theorem lastK_iff : ∀ t : Fin cfg0.N, lastK (grid0.coords t) ↔ t.val % 16 = 15 :=
  (by decide +kernel : ∀ t : Fin grid0.N, lastK (grid0.coords t) ↔ t.val % 16 = 15)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Where k ≠ 15 nothing is stored into the output block: it is idle there, -/
theorem idle0_2 : ∀ t : Fin cfg0.N, ¬lastK (grid0.coords t) → cfg0.idle 2 (grid0.coords t) = true := by decide +kernel
/-- and not written back. -/
theorem noFlush0_2 : ∀ t : Fin cfg0.N, ¬lastK (grid0.coords t) → (cfg0.win 2).flush t = false := by decide +kernel
/-- Where k = 15 it is live. -/
theorem live0_2 : ∀ t : Fin cfg0.N, lastK (grid0.coords t) → cfg0.idle 2 (grid0.coords t) = false := by decide +kernel

/-! ## The buffers the body is handed at a point -/

abbrev mx0 (t : Fin cfg0.N) : Memref sig .tc .vmem S2048x1024 .f32 := win0_0.stage (cfg0.slots t 0)
abbrev hx0 (t : Fin cfg0.N) : (mx0 t).IsWhole := hstage0_0 ((cfg0.slots t 0).cast nbuf0_0)
abbrev mw0 (t : Fin cfg0.N) : Memref sig .tc .vmem S1024x128 .f32 := win0_1.stage (cfg0.slots t 1)
abbrev hw0 (t : Fin cfg0.N) : (mw0 t).IsWhole := hstage0_1 ((cfg0.slots t 1).cast nbuf0_1)
abbrev mo0 (t : Fin cfg0.N) : Memref sig .tc .vmem S2048x128 .f32 := win0_2.stage (cfg0.slots t 2)
abbrev ho0 (t : Fin cfg0.N) : (mo0 t).IsWhole := hstage0_2 ((cfg0.slots t 2).cast nbuf0_2)
/-- The accumulator: a whole buffer of the kernel's own. -/
abbrev acc0 : Memref sig .tc .vmem S2048x128 .f32 := Memref.whole cc0_scratch0
/-- The views through which the output block's and the accumulator's contents are stated. -/
abbrev accV0 : View sig .tc .vmem S2048x128 .f32 := acc0.view
abbrev outV0 : View sig .tc .vmem S2048x128 .f32 := (Memref.whole cc0_stg2_0 : Memref sig .tc .vmem S2048x128 .f32).view

/-- The second product's scoped buffers, which the first product's body never touches: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the pipeline keeps for the body beside the windows: the accumulator at some contents, those other
    buffers, and the generator register at some state. -/
theorem rest0_eq (c : Dev nD) :
    (Pipeline.ΦA spec0 c : sProp 𝕄)
      = iprop(((∃ d, owns (c : Thread nD τ) acc0 fullShare d) ∗ others0 c) ∗ (∃ r, prngReg c r)) := by
  unfold Pipeline.ΦA; rw [scopedRest0_eq]; simp only [acc0, owns_whole, others0]; try rfl

end Cert.KernelIdeal.Hand

end
-- ==== Proof.KernelIdeal.FirstRunA.lean ====
/-
  The first product's body at a point with k = 0 (and k ≠ 15): it clears the accumulator, then adds the block
  product to it; the output block is left as it was found. What the accumulator ends with is found by running
  the body: its stores as a list of pieces, newest first.
-/
import proofs.«169783_j66494683676774_1_alg».proof.Proof.KernelIdeal.FirstCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def firstRunA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) :
    Σ' (L2 : List (View.Piece (Elt F) S2048x128 .f32)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__dense_matmul_kernel i arg2 harg2 arg3 harg3 arg4 harg4 arg5 harg5) K } := by
  refine ⟨[], ?_, fun xi2 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KernelIdeal.FirstRunB.lean ====
/-
  The first product's body at a point with 0 < k < 15: it adds the block product to the accumulator, which holds
  what the point before left; the output block is left as it was found.
-/
import proofs.«169783_j66494683676774_1_alg».proof.Proof.KernelIdeal.FirstRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def firstRunB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) :
    Σ' (L2 : List (View.Piece (Elt F) S2048x128 .f32)), { LS : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__dense_matmul_kernel i arg2 harg2 arg3 harg3 arg4 harg4 arg5 harg5) K } := by
  refine ⟨[], ?_, fun xi2 E K => ?run⟩
  case run =>
    simp only [cc0__dense_matmul_kernel_eq_skeleton]; unfold cc0__dense_matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KernelIdeal.FirstRunC.lean ====
/-
  The first product's body at a point with k = 15: it adds the last block product to the accumulator and copies
  the accumulator into the output block.
-/
import proofs.«169783_j66494683676774_1_alg».proof.Proof.KernelIdeal.FirstRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def firstRunC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) :
    Σ' (L2 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__dense_matmul_kernel i arg2 harg2 arg3 harg3 arg4 harg4 arg5 harg5) K } := by
  refine ⟨?_, ?_, fun E K => ?run⟩
  case run =>
    simp only [cc0__dense_matmul_kernel_eq_skeleton]; unfold cc0__dense_matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KernelIdeal.FirstData.lean ====
/-
  The first product, x·W1, as the pipeline sees it: the blocks of x and W1 a grid point is handed, what the
  output block and the accumulator hold after each point (a recursion over the point number: the accumulator
  restarts where k = 0 and otherwise continues from the point before), the invariant that carries the
  accumulator from one point to the next, and the body's obligation at every point.
-/
import proofs.«169783_j66494683676774_1_alg».proof.Proof.KernelIdeal.FirstRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the first product is entered
variable (V : (c : Dev nD) → (b : Ref sig .tc) → Buf (Elt F) ((c : Thread nD τ).loc b))

/-! ## The blocks a point is handed -/

/-- Window `w`'s block at point `t`, read off its array as the product finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x holds the point's block of x at every point, -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- and the staging buffer of W1 the point's block of W1. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What each case leaves -/

/-- Nothing is stored into the output block in this case; the term below is a placeholder nothing consults (the block is
    neither written back nor read at the next point). -/
def outA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) : Vec F S2048x128 .f32 :=
  outV0.read (Elt F) (outV0.writes (Elt F) outV0.junk (firstRunA c i arg2 harg2 arg3 harg3 arg4 harg4 arg5 harg5 hc0 hc1 x0 x1).1)

/-- The stores into the accumulator cover it. -/
theorem accCoverA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) (y : S2048x128.Idx) :
    ∃ pc ∈ (firstRunA c i arg2 harg2 arg3 harg3 arg4 harg4 arg5 harg5 hc0 hc1 x0 x1).2.1, y ∈ pc.1.set :=
  View.cover_of_tiledL (firstRunA c i arg2 harg2 arg3 harg3 arg4 harg4 arg5 harg5 hc0 hc1 x0 x1).2.1 S2048x128.size (by sl_kernel_rfl) y
/-- What the accumulator holds after the body: its pieces read back. -/
def accA (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) : Vec F S2048x128 .f32 :=
  accV0.read (Elt F) (accV0.writes (Elt F) accV0.junk (firstRunA c i arg2 harg2 arg3 harg3 arg4 harg4 arg5 harg5 hc0 hc1 x0 x1).2.1)

/-- Nothing is stored into the output block in this case; the term below is a placeholder nothing consults (the block is
    neither written back nor read at the next point). -/
def outB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) : Vec F S2048x128 .f32 :=
  outV0.read (Elt F) (outV0.writes (Elt F) outV0.junk (firstRunB c i arg2 harg2 arg3 harg3 arg4 harg4 arg5 harg5 hc0 hc1 x0 x1 xs).1)

/-- The stores into the accumulator cover it. -/
theorem accCoverB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) (y : S2048x128.Idx) :
    ∃ pc ∈ (firstRunB c i arg2 harg2 arg3 harg3 arg4 harg4 arg5 harg5 hc0 hc1 x0 x1 xs).2.1, y ∈ pc.1.set :=
  View.cover_of_tiledL (firstRunB c i arg2 harg2 arg3 harg3 arg4 harg4 arg5 harg5 hc0 hc1 x0 x1 xs).2.1 S2048x128.size (by sl_kernel_rfl) y
/-- What the accumulator holds after the body: its pieces read back. -/
def accB (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) : Vec F S2048x128 .f32 :=
  accV0.read (Elt F) (accV0.writes (Elt F) accV0.junk (firstRunB c i arg2 harg2 arg3 harg3 arg4 harg4 arg5 harg5 hc0 hc1 x0 x1 xs).2.1)

/-- At k = 15 the one store into the output block covers it. -/
theorem outCoverC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) (y : S2048x128.Idx) :
    ∃ pc ∈ (firstRunC c i arg2 harg2 arg3 harg3 arg4 harg4 arg5 harg5 hc0 hc1 x0 x1 xs).1, y ∈ pc.1.set :=
  View.cover_of_tiledL (firstRunC c i arg2 harg2 arg3 harg3 arg4 harg4 arg5 harg5 hc0 hc1 x0 x1 xs).1 S2048x128.size (by sl_kernel_rfl) y
/-- What the output block holds after the body at k = 15: its pieces read back. -/
def outC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) : Vec F S2048x128 .f32 :=
  outV0.read (Elt F) (outV0.writes (Elt F) outV0.junk (firstRunC c i arg2 harg2 arg3 harg3 arg4 harg4 arg5 harg5 hc0 hc1 x0 x1 xs).1)

/-- The stores into the accumulator cover it. -/
theorem accCoverC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) (y : S2048x128.Idx) :
    ∃ pc ∈ (firstRunC c i arg2 harg2 arg3 harg3 arg4 harg4 arg5 harg5 hc0 hc1 x0 x1 xs).2.1, y ∈ pc.1.set :=
  View.cover_of_tiledL (firstRunC c i arg2 harg2 arg3 harg3 arg4 harg4 arg5 harg5 hc0 hc1 x0 x1 xs).2.1 S2048x128.size (by sl_kernel_rfl) y
/-- What the accumulator holds after the body: its pieces read back. -/
def accC (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) : Vec F S2048x128 .f32 :=
  accV0.read (Elt F) (accV0.writes (Elt F) accV0.junk (firstRunC c i arg2 harg2 arg3 harg3 arg4 harg4 arg5 harg5 hc0 hc1 x0 x1 xs).2.1)

/-! ## What the output block and the accumulator hold after each point -/

/-- The accumulation, by recursion on the point number: after point `n` the pair (output block, accumulator) is what
    the case of `n` leaves — at k = 0 from the point's blocks alone, otherwise from the accumulator the point before left. -/
def outsAt0 (c : Dev nD) : (n : ℕ) → n < cfg0.N → Vec F S2048x128 .f32 × Vec F S2048x128 .f32
  | 0, hn => (outA c (grid0.coords ⟨0, hn⟩) (mx0 ⟨0, hn⟩) (hx0 ⟨0, hn⟩) (mw0 ⟨0, hn⟩) (hw0 ⟨0, hn⟩) (mo0 ⟨0, hn⟩) (ho0 ⟨0, hn⟩) acc0 (Memref.isWhole_whole _) ((firstK_iff ⟨0, hn⟩).mpr (Nat.zero_mod _)) (fun h => (fun h => by (try dsimp only at h); omega) ((lastK_iff ⟨0, hn⟩).mp h)) (blk0 V c 0 ⟨0, hn⟩) (blk0 V c 1 ⟨0, hn⟩), accA c (grid0.coords ⟨0, hn⟩) (mx0 ⟨0, hn⟩) (hx0 ⟨0, hn⟩) (mw0 ⟨0, hn⟩) (hw0 ⟨0, hn⟩) (mo0 ⟨0, hn⟩) (ho0 ⟨0, hn⟩) acc0 (Memref.isWhole_whole _) ((firstK_iff ⟨0, hn⟩).mpr (Nat.zero_mod _)) (fun h => (fun h => by (try dsimp only at h); omega) ((lastK_iff ⟨0, hn⟩).mp h)) (blk0 V c 0 ⟨0, hn⟩) (blk0 V c 1 ⟨0, hn⟩))
  | n + 1, hn =>
    if h0 : (n + 1) % 16 = 0 then
      if h1 : (n + 1) % 16 = 15 then
        False.elim (by omega)
      else
        (outA c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) ((firstK_iff ⟨n + 1, hn⟩).mpr h0) (fun h => h1 ((lastK_iff ⟨n + 1, hn⟩).mp h)) (blk0 V c 0 ⟨n + 1, hn⟩) (blk0 V c 1 ⟨n + 1, hn⟩), accA c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) ((firstK_iff ⟨n + 1, hn⟩).mpr h0) (fun h => h1 ((lastK_iff ⟨n + 1, hn⟩).mp h)) (blk0 V c 0 ⟨n + 1, hn⟩) (blk0 V c 1 ⟨n + 1, hn⟩))
    else
      if h1 : (n + 1) % 16 = 15 then
        (outC c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) ((lastK_iff ⟨n + 1, hn⟩).mpr h1) (blk0 V c 0 ⟨n + 1, hn⟩) (blk0 V c 1 ⟨n + 1, hn⟩) (outsAt0 c n (Nat.lt_of_succ_lt hn)).2, accC c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) ((lastK_iff ⟨n + 1, hn⟩).mpr h1) (blk0 V c 0 ⟨n + 1, hn⟩) (blk0 V c 1 ⟨n + 1, hn⟩) (outsAt0 c n (Nat.lt_of_succ_lt hn)).2)
      else
        (outB c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) (fun h => h1 ((lastK_iff ⟨n + 1, hn⟩).mp h)) (blk0 V c 0 ⟨n + 1, hn⟩) (blk0 V c 1 ⟨n + 1, hn⟩) (outsAt0 c n (Nat.lt_of_succ_lt hn)).2, accB c (grid0.coords ⟨n + 1, hn⟩) (mx0 ⟨n + 1, hn⟩) (hx0 ⟨n + 1, hn⟩) (mw0 ⟨n + 1, hn⟩) (hw0 ⟨n + 1, hn⟩) (mo0 ⟨n + 1, hn⟩) (ho0 ⟨n + 1, hn⟩) acc0 (Memref.isWhole_whole _) (fun h => h0 ((firstK_iff ⟨n + 1, hn⟩).mp h)) (fun h => h1 ((lastK_iff ⟨n + 1, hn⟩).mp h)) (blk0 V c 0 ⟨n + 1, hn⟩) (blk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (outA c (grid0.coords t) (mx0 t) (hx0 t) (mw0 t) (hw0 t) (mo0 t) (ho0 t) acc0 (Memref.isWhole_whole _) ((firstK_iff t).mpr h0) (fun h => h1 ((lastK_iff t).mp h)) (blk0 V c 0 t) (blk0 V c 1 t), accA c (grid0.coords t) (mx0 t) (hx0 t) (mw0 t) (hw0 t) (mo0 t) (ho0 t) acc0 (Memref.isWhole_whole _) ((firstK_iff t).mpr h0) (fun h => h1 ((lastK_iff t).mp h)) (blk0 V c 0 t) (blk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (outB c (grid0.coords t) (mx0 t) (hx0 t) (mw0 t) (hw0 t) (mo0 t) (ho0 t) acc0 (Memref.isWhole_whole _) (fun h => h0 ((firstK_iff t).mp h)) (fun h => h1 ((lastK_iff t).mp h)) (blk0 V c 0 t) (blk0 V c 1 t) (outsAt0 V c (t.val - 1) (Nat.lt_of_le_of_lt (Nat.sub_le _ _) t.isLt)).2, accB c (grid0.coords t) (mx0 t) (hx0 t) (mw0 t) (hw0 t) (mo0 t) (ho0 t) acc0 (Memref.isWhole_whole _) (fun h => h0 ((firstK_iff t).mp h)) (fun h => h1 ((lastK_iff t).mp h)) (blk0 V c 0 t) (blk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (outC c (grid0.coords t) (mx0 t) (hx0 t) (mw0 t) (hw0 t) (mo0 t) (ho0 t) acc0 (Memref.isWhole_whole _) (fun h => h0 ((firstK_iff t).mp h)) ((lastK_iff t).mpr h1) (blk0 V c 0 t) (blk0 V c 1 t) (outsAt0 V c (t.val - 1) (Nat.lt_of_le_of_lt (Nat.sub_le _ _) t.isLt)).2, accC c (grid0.coords t) (mx0 t) (hx0 t) (mw0 t) (hw0 t) (mo0 t) (ho0 t) acc0 (Memref.isWhole_whole _) (fun h => h0 ((firstK_iff t).mp h)) ((lastK_iff t).mpr h1) (blk0 V c 0 t) (blk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before point `n`: at the start whatever the pipeline keeps (the accumulator at anything); afterwards the
    accumulator at what point `n - 1` left, the other product's buffers at anything, the generator register at some state. -/
def inv0 (c : Dev nD) : (n : ℕ) → n ≤ cfg0.N → sProp 𝕄
  | 0, _ => Pipeline.ΦA spec0 c
  | n + 1, hn => iprop((owns (c : Thread nD τ) acc0 fullShare ((outsAt0 V c n hn).2) ∗ others0 c) ∗ (∃ r, prngReg c r))

theorem inv0_zero (c : Dev nD) (n : ℕ) (h : n ≤ cfg0.N) (hz : n = 0) : inv0 V c n h = Pipeline.ΦA spec0 c := by
  subst hz; rfl

theorem inv0_succ (c : Dev nD) (n : ℕ) (hn : n < cfg0.N) :
    inv0 V c (n + 1) hn = iprop((owns (c : Thread nD τ) acc0 fullShare ((outsAt0 V c n hn).2) ∗ others0 c) ∗ (∃ r, prngReg c r)) := rfl

theorem inv0_pos (c : Dev nD) (n : ℕ) (h : n ≤ cfg0.N) (hz : n ≠ 0) :
    inv0 V c n h = iprop((owns (c : Thread nD τ) acc0 fullShare ((outsAt0 V c (n - 1) (by omega)).2) ∗ others0 c) ∗ (∃ r, prngReg c r)) := by
  cases n with
  | zero => exact absurd rfl hz
  | succ n => rfl

/-! ## The pipeline's proof data -/

/-- The arrays as the product finds them; after the body each input's buffer at its block, the output's at
    `outsAt0`'s first component; the invariant `inv0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (outsAt0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mx0 t) fullShare ((dat0 V c).before 0 t d))
    ∗ (∃ d, owns (c : Thread nD τ) (mw0 t) fullShare ((dat0 V c).before 1 t d))
    ∗ (∃ d, owns (c : Thread nD τ) (mo0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms of the two conditions say which
    case the point is in; the invariant hands the body the accumulator at what the point before left (at anything
    where k = 0) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  have hN : t.val < 128 := lt_of_lt_of_eq t.isLt (show cfg0.N = 128 from N_0)
  rw [show (dat0 V c).leavesExact 0 t = owns (c : Thread nD τ) (mx0 t) fullShare ((dat0 V c).after 0 t) from by
    unfold Dat.leavesExact; rw [live0_0 t], after0_0]
  rw [show (dat0 V c).leavesExact 1 t = owns (c : Thread nD τ) (mw0 t) fullShare ((dat0 V c).after 1 t) from by
    unfold Dat.leavesExact; rw [live0_1 t], after0_1]
  by_cases h0 : t.val % 16 = 0
  · by_cases h1 : t.val % 16 = 15
    · exfalso; omega
    · rw [Dat.leavesExact_idle (dat0 V c) 2 t (idle0_2 t (fun h => h1 ((lastK_iff t).mp h))) (noFlush0_2 t (fun h => h1 ((lastK_iff t).mp h)))]
      rw [outsAt0_A V c t h0 h1]
      unfold accA; (try dsimp only)
      by_cases hz : t.val = 0
      · rw [inv0_castSucc V c t, inv0_zero V c _ _ hz, rest0_eq]
        iintro ⟨⟨⟨HS, Hoth⟩, Hg⟩, Ho, ⟨%d0, H0⟩, ⟨%d1, H1⟩, ⟨%d2, H2⟩⟩
        iapply ((firstRunA c (grid0.coords t) _ _ _ _ _ _ _ _ ((firstK_iff t).mpr h0) (fun h => h1 ((lastK_iff t).mp h)) (blk0 V c 0 t) (blk0 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverA c _ _ _ _ _ _ _ _ _ _ _ _ _)
            iexact Hoth
          iexact Hg
        isplitl [Ho]; · iexact Ho
        isplitl [H0]; · iexact H0
        isplitl [H1]; · iexact H1
        iexists _; iexact H2
      · rw [inv0_castSucc V c t, inv0_pos V c _ _ hz]
        iintro ⟨⟨⟨HS, Hoth⟩, Hg⟩, Ho, ⟨%d0, H0⟩, ⟨%d1, H1⟩, ⟨%d2, H2⟩⟩
        iapply ((firstRunA c (grid0.coords t) _ _ _ _ _ _ _ _ ((firstK_iff t).mpr h0) (fun h => h1 ((lastK_iff t).mp h)) (blk0 V c 0 t) (blk0 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverA c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun hz => h0 (by rw [hz])
    by_cases h1 : t.val % 16 = 15
    · rw [show (dat0 V c).leavesExact 2 t = owns (c : Thread nD τ) (mo0 t) fullShare ((dat0 V c).after 2 t) from by
        unfold Dat.leavesExact; rw [live0_2 t ((lastK_iff t).mpr h1)], after0_2]
      rw [outsAt0_C V c t h0 h1]
      unfold outC accC; (try dsimp only)
      rw [inv0_castSucc V c t, inv0_pos V c _ _ hz]
      iintro ⟨⟨⟨HS, Hoth⟩, Hg⟩, Ho, ⟨%d0, H0⟩, ⟨%d1, H1⟩, ⟨%d2, H2⟩⟩
      iapply ((firstRunC c (grid0.coords t) _ _ _ _ _ _ _ _ (fun h => h0 ((firstK_iff t).mp h)) ((lastK_iff t).mpr h1) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accCoverC c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC c _ _ _ _ _ _ _ _ _ _ _ _ _ _)
    · rw [Dat.leavesExact_idle (dat0 V c) 2 t (idle0_2 t (fun h => h1 ((lastK_iff t).mp h))) (noFlush0_2 t (fun h => h1 ((lastK_iff t).mp h)))]
      rw [outsAt0_B V c t h0 h1]
      unfold accB; (try dsimp only)
      rw [inv0_castSucc V c t, inv0_pos V c _ _ hz]
      iintro ⟨⟨⟨HS, Hoth⟩, Hg⟩, Ho, ⟨%d0, H0⟩, ⟨%d1, H1⟩, ⟨%d2, H2⟩⟩
      iapply ((firstRunB c (grid0.coords t) _ _ _ _ _ _ _ _ (fun h => h0 ((firstK_iff t).mp h)) (fun h => h1 ((lastK_iff t).mp h)) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accCoverB c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the pipeline hands the product is the invariant before the first point. -/
theorem inv0_in (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives it back: the accumulator's contents are forgotten. -/
theorem inv0_out (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), rest0_eq]
  iintro ⟨⟨HS, Hoth⟩, Hg⟩
  isplitl [HS Hoth]
  · isplitl [HS]
    · iexists _; iexact HS
    iexact Hoth
  iexact Hg

end Cert.KernelIdeal.Hand

end
-- ==== Proof.KernelIdeal.FirstPieces.lean ====
/-
  What each case of the first product's body leaves in the accumulator and in the output block, as the body's
  arithmetic: every store and load goes through the whole buffer, so the newest store's value is what a later load
  reads and what the buffer ends with.
-/
import proofs.«169783_j66494683676774_1_alg».proof.Proof.KernelIdeal.FirstData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

theorem zero2 : (![0, 0] : Fin 2 → Nat) = fun _ => 0 := funext fun a => by fin_cases a <;> rfl

/-- A load through the whole rectangle of what a list of stores left, the newest of them through the whole rectangle,
    reads the newest store's value. -/
theorem readCov_newest {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.Mem.head _, by
    show y ∈ (Rect.whole S).set; rw [Rect.set_whole]; exact Finset.mem_univ y⟩), View.canon_cons_unit_zero rfl, View.ld_unit_zero rfl]

/-! ## What each case leaves, as the body's arithmetic -/

theorem accA_eq {F : FTy → Type} [FloatOps F] (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : firstK i) (hc1 : ¬lastK i)
    (x0 : Vec F S2048x1024 .f32) (x1 : Vec F S1024x128 .f32) :
    accA c i arg2 harg2 arg3 harg3 arg4 harg4 arg5 harg5 hc0 hc1 x0 x1 = k0_pay2 x0 x1 k0_pay1 := by
  unfold accA
  rw [View.read_writes_eq_canon _ _ _ (accCoverA c i arg2 harg2 arg3 harg3 arg4 harg4 arg5 harg5 hc0 hc1 x0 x1)]
  unfold firstRunA
  dsimp only
  sl_unfold_words
  rw [View.canon_cons_unit_zero zero2, View.readCov_unit_zero _ zero2]
  simp only [View.readAt_eq_ld, harg2.read_unread, harg3.read_unread, harg5.read_unread, View.ld_unit_zero (S := S2048x1024) zero2, View.ld_unit_zero (S := S1024x128) zero2, View.ld_unit_zero (S := S2048x128) zero2]

theorem accB_eq {F : FTy → Type} [FloatOps F] (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : ¬lastK i)
    (x0 : Vec F S2048x1024 .f32) (x1 : Vec F S1024x128 .f32) (xs : Vec F S2048x128 .f32) :
    accB c i arg2 harg2 arg3 harg3 arg4 harg4 arg5 harg5 hc0 hc1 x0 x1 xs = k0_pay2 x0 x1 xs := by
  unfold accB
  rw [View.read_writes_eq_canon _ _ _ (accCoverB c i arg2 harg2 arg3 harg3 arg4 harg4 arg5 harg5 hc0 hc1 x0 x1 xs)]
  unfold firstRunB
  dsimp only
  sl_unfold_words
  rw [View.canon_unit_zero zero2]
  simp only [View.readAt_eq_ld, harg2.read_unread, harg3.read_unread, harg5.read_unread, View.ld_unit_zero (S := S2048x1024) zero2, View.ld_unit_zero (S := S1024x128) zero2, View.ld_unit_zero (S := S2048x128) zero2]

theorem accC_eq {F : FTy → Type} [FloatOps F] (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) :
    accC c i arg2 harg2 arg3 harg3 arg4 harg4 arg5 harg5 hc0 hc1 x0 x1 xs = k0_pay2 x0 x1 xs := by
  unfold accC
  rw [View.read_writes_eq_canon _ _ _ (accCoverC c i arg2 harg2 arg3 harg3 arg4 harg4 arg5 harg5 hc0 hc1 x0 x1 xs)]
  unfold firstRunC
  dsimp only
  sl_unfold_words
  rw [View.canon_unit_zero zero2]
  simp only [View.readAt_eq_ld, harg2.read_unread, harg3.read_unread, harg5.read_unread, View.ld_unit_zero (S := S2048x1024) zero2, View.ld_unit_zero (S := S1024x128) zero2, View.ld_unit_zero (S := S2048x128) zero2]

theorem outC_eq {F : FTy → Type} [FloatOps F] (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬firstK i) (hc1 : lastK i)
    (x0 : Vec F S2048x1024 .f32) (x1 : Vec F S1024x128 .f32) (xs : Vec F S2048x128 .f32) :
    outC c i arg2 harg2 arg3 harg3 arg4 harg4 arg5 harg5 hc0 hc1 x0 x1 xs = k0_pay2 x0 x1 xs := by
  unfold outC
  rw [View.read_writes_eq_canon _ _ _ (outCoverC c i arg2 harg2 arg3 harg3 arg4 harg4 arg5 harg5 hc0 hc1 x0 x1 xs)]
  unfold firstRunC
  dsimp only
  sl_unfold_words
  rw [View.canon_unit_zero zero2, View.readCov_unit_zero _ zero2]
  simp only [View.readAt_eq_ld, harg2.read_unread, harg3.read_unread, harg5.read_unread, View.ld_unit_zero (S := S2048x1024) zero2, View.ld_unit_zero (S := S1024x128) zero2, View.ld_unit_zero (S := S2048x128) zero2]

/-! ## The accumulator along the grid -/

section
variable {F : FTy → Type} [FloatOps F]
variable (V : (c : Dev nD) → (b : Ref sig .tc) → Buf (Elt F) ((c : Thread nD τ).loc b))

set_option maxHeartbeats 4800000 in
/-- Where k = 0 the accumulator ends at the block product added to the cleared accumulator. -/
theorem acc_first (c : Dev nD) (t : Fin cfg0.N) (h0 : t.val % 16 = 0) (h1 : ¬t.val % 16 = 15) :
    (outsAt0 V c t.val t.isLt).2 = k0_pay2 (blk0 V c 0 t) (blk0 V c 1 t) k0_pay1 := by
  rw [outsAt0_A V c t h0 h1]
  dsimp only
  exact accA_eq c _ _ _ _ _ _ _ _ _ _ _ _ _

set_option maxHeartbeats 4800000 in
/-- Elsewhere it ends at the block product added to what the point before left. -/
theorem acc_step (c : Dev nD) (t : Fin cfg0.N) (h0 : ¬t.val % 16 = 0) :
    (outsAt0 V c t.val t.isLt).2
      = k0_pay2 (blk0 V c 0 t) (blk0 V c 1 t) (outsAt0 V c (t.val - 1) (Nat.lt_of_le_of_lt (Nat.sub_le _ _) t.isLt)).2 := by
  by_cases h1 : t.val % 16 = 15
  · rw [outsAt0_C V c t h0 h1]
    dsimp only
    exact accC_eq c _ _ _ _ _ _ _ _ _ _ _ _ _ _
  · rw [outsAt0_B V c t h0 h1]
    dsimp only
    exact accB_eq c _ _ _ _ _ _ _ _ _ _ _ _ _ _

set_option maxHeartbeats 4800000 in
/-- At k = 15 the output block receives the accumulator. -/
theorem out_last (c : Dev nD) (t : Fin cfg0.N) (h0 : ¬t.val % 16 = 0) (h1 : t.val % 16 = 15) :
    (outsAt0 V c t.val t.isLt).1 = (outsAt0 V c t.val t.isLt).2 := by
  rw [outsAt0_C V c t h0 h1]
  dsimp only
  exact (outC_eq c _ _ _ _ _ _ _ _ _ _ _ _ _ _).trans (accC_eq c _ _ _ _ _ _ _ _ _ _ _ _ _ _).symm

end

end Cert.KernelIdeal.Hand

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«169783_j66494683676774_1_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LibMatProduct.lean ====
/-
  The product of two matrices of extended reals, entry by entry: (X·W)(p, q) = Σ_k X(p, k) · W(k, q).
  A host product with the plain dimension numbers (no batch axis, the left factor's axis 1 contracted with the right
  factor's axis 0) is this function of its operands, so two programs' dense products can be compared through it.
  General: nothing here depends on a particular program.
-/
import Idealize.ShloMosaic.Lib.ValueIdx
import Idealize.ShloMosaic.PureOps.Ideal.Laws
import proofs.«169783_j66494683676774_1_alg».proof.Proof.LibPlainDot

noncomputable section

open scoped BigOperators

namespace Cert.MatProduct

open Idealize.ShloMosaic Idealize.ShloMosaic.ValueIdx

/-- (X·W)(j) = Σ_k X(j₀, k) · W(k, j₁). -/
def prod {A K B : Nat} (X : (⟨2, ![A, K]⟩ : Shape).Idx → EReal) (W : (⟨2, ![K, B]⟩ : Shape).Idx → EReal) :
    (⟨2, ![A, B]⟩ : Shape).Idx → EReal :=
  fun j => ∑ k : Fin K, X (ix2 (j 0) k) * W (ix2 k (j 1))

theorem prod_at {A K B : Nat} (X : (⟨2, ![A, K]⟩ : Shape).Idx → EReal) (W : (⟨2, ![K, B]⟩ : Shape).Idx → EReal)
    (p : Fin A) (q : Fin B) : prod X W (ix2 p q) = ∑ k : Fin K, X (ix2 p k) * W (ix2 k q) := rfl

/-- A host product with the plain dimension numbers is this product. -/
theorem dotGeneral_eq {A K B : Nat} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) .f32) (r : FVec Ideal (⟨2, ![K, B]⟩ : Shape) .f32) :
    FloatOps.dotGeneral d prec sched l r = prod l r := by
  funext j
  rw [eq_ix2 j]
  exact Cert.LibPlainDot.dotGeneral_at d hr hs hlc hrc hlb hln hrb hrn prec sched l r (j 0) (j 1)

end Cert.MatProduct

end
-- ==== Proof.LibPrefixSum.lean ====
/-
  Prefix sums over an initial segment of the naturals, in any additive commutative monoid.

  A sum of the terms f 0, …, f (a + b − 1) is the sum of the first a of them plus the b terms that follow; so the
  sum of the first (k + 1) · q terms is the sum of the first k · q plus block k, the q terms f (k · q + j), j < q.
  This is the step of an accumulation that walks a long sum block by block: after block k the accumulator holds the
  prefix sum up to (k + 1) · q, and after the last block the whole sum, which is also the sum over Fin n.
  General: nothing here depends on a particular program.
-/
import Mathlib.Algebra.BigOperators.Fin
import Mathlib.Algebra.BigOperators.Group.Finset.Basic

open scoped BigOperators

namespace LibPrefixSum

variable {M : Type*} [AddCommMonoid M]

/-- The first a + b terms are the first a plus the b after them. -/
theorem prefix_add (f : ℕ → M) (a b : ℕ) :
    ∑ l ∈ Finset.range (a + b), f l = ∑ l ∈ Finset.range a, f l + ∑ j : Fin b, f (a + j.val) := by
  rw [Finset.sum_range_add]
  exact congrArg _ (Finset.sum_range fun x => f (a + x))

/-- The first (k + 1) · q terms are the first k · q plus block k. -/
theorem prefix_block (f : ℕ → M) (k q : ℕ) :
    ∑ l ∈ Finset.range ((k + 1) * q), f l = ∑ l ∈ Finset.range (k * q), f l + ∑ j : Fin q, f (k * q + j.val) := by
  rw [Nat.succ_mul, prefix_add]

/-- The first block alone: the first q terms, from zero. -/
theorem prefix_first (f : ℕ → M) (q : ℕ) :
    ∑ l ∈ Finset.range ((0 + 1) * q), f l = 0 + ∑ j : Fin q, f (0 * q + j.val) := by
  rw [prefix_block, Nat.zero_mul, Finset.range_zero, Finset.sum_empty]

/-- A prefix sum of n terms is the sum over Fin n. -/
theorem prefix_all (f : ℕ → M) (n : ℕ) : ∑ l ∈ Finset.range n, f l = ∑ k : Fin n, f k.val :=
  Finset.sum_range f

end LibPrefixSum
-- ==== Proof.KernelIdeal.FirstValue.lean ====
/-
  The first product at the extended reals. The accumulator after the point (i, k) holds, at (r, q), the partial sum
  Σ_{L < 1024·(k+1)} x(2048·i + r, L) · W1(L, q): it restarts from zero where k = 0 and each later point adds its
  block of 1024 terms. At k = 15 that is the whole sum over L < 16384, which is what the output block receives;
  the eight output blocks tile the result, so the result array is the matrix product x·W1.
-/
import proofs.«169783_j66494683676774_1_alg».proof.Proof.KernelIdeal.FirstPieces
import proofs.«169783_j66494683676774_1_alg».proof.Proof.LibMatProduct
import proofs.«169783_j66494683676774_1_alg».proof.Proof.LibPrefixSum
import Idealize.ShloMosaic.Lib.Pipeline.Value
import Idealize.ShloMosaic.Lib.ValueIdx
import Idealize.ShloMosaic.PureOps.Ideal.Laws

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The body's arithmetic at an entry -/

/-- The cleared accumulator is zero. -/
theorem cleared_at (j : S2048x128.Idx) : k0_pay1 (F := Ideal) j = 0 := by
  unfold k0_pay1
  refine (congrFun (shapeCast_self _ _) j).trans ?_
  exact Ideal.ofBits_zero_f32

/-- One step of the accumulation: the accumulator plus the product of the two blocks. -/
theorem step_at (x : Vec Ideal S2048x1024 .f32) (w : Vec Ideal S1024x128 .f32) (s : Vec Ideal S2048x128 .f32)
    (r : Fin 2048) (q : Fin 128) :
    k0_pay2 (F := Ideal) x w s (ix2 r q) = s (ix2 r q) + ∑ l : Fin 1024, x (ix2 r l) * w (ix2 l q) := by
  unfold k0_pay2
  refine (congrFun (shapeCast_self _ _) (ix2 r q)).trans ?_
  refine (addf_apply _ _ _).trans ?_
  exact congrArg (fun z => s (ix2 r q) + z)
    (Cert.LibPlainDot.matmul_zero_at dot_S2048x1024_S1024x128_S2048x128_1_0_0_1_n_n rfl rfl rfl rfl rfl rfl rfl rfl none _ _ r q)

section
variable (V : (c : Dev nD) → (b : Ref sig .tc) → Buf (Elt Ideal) ((c : Thread nD τ).loc b))

/-- The point's blocks of x and of W1, and the two argument arrays, as functions into the extended reals. -/
abbrev xblk (c : Dev nD) (t : Fin cfg0.N) : S2048x1024.Idx → EReal := blk0 V c 0 t
abbrev wblk (c : Dev nD) (t : Fin cfg0.N) : S1024x128.Idx → EReal := blk0 V c 1 t
abbrev xArr (c : Dev nD) : S16384x16384.Idx → EReal := V c main_arg0
abbrev wArr (c : Dev nD) : S16384x128.Idx → EReal := V c main_arg1

/-! ## The accumulator along the grid -/

/-! ## The blocks, read at an entry -/

/-- The printed index maps over the grid: point t = 16·i + k reads block (i, k) of x, block (k, 0) of W1, and writes
    block (i, 0) of the result. -/
theorem idx0 : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem blk_x (c : Dev nD) (t : Fin cfg0.N) (r : Fin 2048) (l : Fin 1024)
    (hR : 2048 * (t.val / 16) + r.val < 16384) (hL : 1024 * (t.val % 16) + l.val < 16384) :
    xblk V c t (ix2 r l)
      = (xArr V c) (ix2 ⟨2048 * (t.val / 16) + r.val, hR⟩ ⟨1024 * (t.val % 16) + l.val, hL⟩) := by
  obtain ⟨e0, e1, -⟩ := idx0 t
  show blk0 V c 0 t (ix2 r l) = _
  unfold blk0
  rw [View.read_apply]
  refine congrArg (xArr V c) (funext fun a => Fin.ext ?_)
  match a with
  | ⟨0, _⟩ => show win0_0.index t (0 : Fin 2) * 2048 + 1 * r.val = 2048 * (t.val / 16) + r.val; omega
  | ⟨1, _⟩ => show win0_0.index t (1 : Fin 2) * 1024 + 1 * l.val = 1024 * (t.val % 16) + l.val; omega

theorem blk_w (c : Dev nD) (t : Fin cfg0.N) (l : Fin 1024) (q : Fin 128)
    (hL : 1024 * (t.val % 16) + l.val < 16384) :
    wblk V c t (ix2 l q)
      = (wArr V c) (ix2 ⟨1024 * (t.val % 16) + l.val, hL⟩ q) := by
  obtain ⟨-, -, e2, e3, -⟩ := idx0 t
  show blk0 V c 1 t (ix2 l q) = _
  unfold blk0
  rw [View.read_apply]
  refine congrArg (wArr V c) (funext fun a => Fin.ext ?_)
  match a with
  | ⟨0, _⟩ => show win0_1.index t (0 : Fin 2) * 1024 + 1 * l.val = 1024 * (t.val % 16) + l.val; omega
  | ⟨1, _⟩ => show win0_1.index t (1 : Fin 2) * 128 + 1 * q.val = q.val; omega

/-! ## The partial sums -/

/-- The term x(R, L) · W1(L, q) as a function of a natural contraction index (zero past the array's end). -/
def term (X : S16384x16384.Idx → EReal) (W : S16384x128.Idx → EReal) (R : Fin 16384) (q : Fin 128) (L : ℕ) : EReal :=
  if h : L < 16384 then X (ix2 R ⟨L, h⟩) * W (ix2 ⟨L, h⟩ q) else 0

/-- A sum over the naturals below n of terms guarded by "below n" is the sum over Fin n. -/
theorem sum_guarded {n : ℕ} (f : Fin n → EReal) :
    ∑ L ∈ Finset.range n, (if h : L < n then f ⟨L, h⟩ else 0) = ∑ k : Fin n, f k := by
  rw [Finset.sum_range]
  exact Fintype.sum_congr _ _ fun k => dif_pos k.isLt

/-- The row of x that row r of point t's block is. -/
def rowOf (t : Fin cfg0.N) (r : Fin 2048) : Fin 16384 :=
  ⟨2048 * (t.val / 16) + r.val, by have : t.val < 128 := lt_of_lt_of_eq t.isLt (show cfg0.N = 128 from N_0); omega⟩

/-- Point t's block of 1024 terms. -/
theorem block_terms (c : Dev nD) (t : Fin cfg0.N) (r : Fin 2048) (q : Fin 128) :
    ∑ l : Fin 1024, xblk V c t (ix2 r l) * wblk V c t (ix2 l q)
      = ∑ j : Fin 1024, term (xArr V c) (wArr V c) (rowOf t r) q (t.val % 16 * 1024 + j.val) := by
  have hN : t.val < 128 := lt_of_lt_of_eq t.isLt (show cfg0.N = 128 from N_0)
  refine Finset.sum_congr rfl fun l _ => ?_
  have hl : l.val < 1024 := l.isLt
  have hr : r.val < 2048 := r.isLt
  have hL : t.val % 16 * 1024 + l.val < 16384 := by omega
  unfold term
  rw [dif_pos hL, blk_x V c t r l (by omega) (by omega), blk_w V c t l q (by omega)]
  congr 2
  · exact congrArg (ix2 (rowOf t r)) (Fin.ext (by show 1024 * (t.val % 16) + l.val = t.val % 16 * 1024 + l.val; omega))
  · exact congrArg (fun z => ix2 z q) (Fin.ext (by show 1024 * (t.val % 16) + l.val = t.val % 16 * 1024 + l.val; omega))

/-- After the point (i, k) the accumulator holds the partial sums up to 1024·(k+1). -/
theorem acc_prefix (c : Dev nD) : ∀ (n : ℕ) (t : Fin cfg0.N), t.val = n → ∀ (r : Fin 2048) (q : Fin 128),
    (outsAt0 V c t.val t.isLt).2 (ix2 r q)
      = ∑ L ∈ Finset.range ((t.val % 16 + 1) * 1024), term (xArr V c) (wArr V c) (rowOf t r) q L := by
  intro n
  induction n with
  | zero =>
    intro t ht r q
    have h0 : t.val % 16 = 0 := by omega
    refine (congrFun (acc_first V c t h0 (by omega)) (ix2 r q)).trans ?_
    refine (step_at _ _ _ r q).trans ?_
    refine (congrArg₂ (fun a b : EReal => a + b) (cleared_at (ix2 r q)) (block_terms V c t r q)).trans ?_
    rw [h0]
    exact (LibPrefixSum.prefix_first _ 1024).symm
  | succ n ih =>
    intro t ht r q
    have hN : t.val < 128 := lt_of_lt_of_eq t.isLt (show cfg0.N = 128 from N_0)
    by_cases h0 : t.val % 16 = 0
    · refine (congrFun (acc_first V c t h0 (by omega)) (ix2 r q)).trans ?_
      refine (step_at _ _ _ r q).trans ?_
      refine (congrArg₂ (fun a b : EReal => a + b) (cleared_at (ix2 r q)) (block_terms V c t r q)).trans ?_
      rw [h0]
      exact (LibPrefixSum.prefix_first _ 1024).symm
    · have hprev := ih ⟨t.val - 1, Nat.lt_of_le_of_lt (Nat.sub_le _ _) t.isLt⟩ (by show t.val - 1 = n; omega) r q
      dsimp only at hprev
      have e1 : (t.val - 1) % 16 + 1 = t.val % 16 := by omega
      have e2 : rowOf ⟨t.val - 1, Nat.lt_of_le_of_lt (Nat.sub_le _ _) t.isLt⟩ r = rowOf t r :=
        Fin.ext (by show 2048 * ((t.val - 1) / 16) + r.val = 2048 * (t.val / 16) + r.val; omega)
      rw [e1, e2] at hprev
      refine (congrFun (acc_step V c t h0) (ix2 r q)).trans ?_
      refine (step_at _ _ _ r q).trans ?_
      refine (congrArg₂ (fun a b : EReal => a + b) hprev (block_terms V c t r q)).trans ?_
      exact (LibPrefixSum.prefix_block _ (t.val % 16) 1024).symm

/-! ## The result array -/

/-- What the point with k = 15 writes back is its block of the product. -/
theorem flushed_first (c : Dev nD) (t : Fin cfg0.N) (hf : (cfg0.win 2).flush t = true) :
    (dat0 V c).flushed 2 t = ((cfg0.win 2).blk t).view.read (Elt Ideal)
      (Cert.MatProduct.prod (xArr V c) (wArr V c)) := by
  have h1 : t.val % 16 = 15 := (flush0_2 t).mp hf
  have hN : t.val < 128 := lt_of_lt_of_eq t.isLt (show cfg0.N = 128 from N_0)
  obtain ⟨-, -, -, -, e4, e5⟩ := idx0 t
  show (cfg0.win 2).cut (grid0.coords t) ((dat0 V c).after 2 t) = _
  rw [after0_2, out_last V c t (by omega) h1]
  funext y
  obtain ⟨r, q, rfl⟩ : ∃ (r : Fin 2048) (q : Fin 128), y = ix2 r q := ⟨y 0, y 1, eq_ix2 y⟩
  refine (acc_prefix V c t.val t rfl r q).trans ?_
  rw [View.read_apply]
  refine Eq.trans ?_ (cast_eq _ _).symm
  have hemb : ((cfg0.win 2).blk t).view.emb (ix2 r q) = (ix2 (rowOf t r) q : S16384x128.Idx) :=
    funext fun a => Fin.ext (by
      match a with
      | ⟨0, _⟩ => show win0_2.index t (0 : Fin 2) * 2048 + 1 * r.val = 2048 * (t.val / 16) + r.val; omega
      | ⟨1, _⟩ => show win0_2.index t (1 : Fin 2) * 128 + 1 * q.val = q.val; omega)
  rw [hemb, Cert.MatProduct.prod_at, h1, (by norm_num : (15 + 1) * 1024 = 16384)]
  exact sum_guarded (fun k : Fin 16384 => xArr V c (ix2 (rowOf t r) k) * wArr V c (ix2 k q))

/-- An index of the result is in point t's block iff each coordinate is in the block's range. -/
theorem mem_blk_first (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v31).slice (win0_2.rect t)).set ↔ _
  rw [View.set_slice_whole, Rect.mem_set_unit]
  exact Iff.rfl

/-- The first product leaves the matrix product x·W1 in its result array. -/
theorem first_product (c : Dev nD) :
    (dat0 V c).arrAt 2 cfg0.N
      = Cert.MatProduct.prod (xArr V c) (wArr V c) := by
  refine (dat0 V c).arrAt_eq_of_cover 2 _ (fun t hf => flushed_first V c t hf) fun i => ?_
  have hi0 : (i 0).val < 16384 := (i 0).isLt
  have hi1 : (i 1).val < 128 := (i 1).isLt
  let t : Fin cfg0.N := ⟨(i 0).val / 2048 * 16 + 15, by rw [show cfg0.N = 128 from N_0]; omega⟩
  have ht : t.val = (i 0).val / 2048 * 16 + 15 := rfl
  obtain ⟨-, -, -, -, e4, e5⟩ := idx0 t
  refine ⟨t, (flush0_2 t).mpr (by rw [ht]; omega), ?_⟩
  rw [mem_blk_first]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

end

end Cert.KernelIdeal.Hand

end
-- ==== Proof.KernelIdeal.SecondRun.lean ====
/-
  The second product, h·W2 over f32[16384,128]×f32[128,128], runs on a grid of 4 row blocks with the whole
  contraction in one step: at every point k = 0 is both the first and the last step, so the body clears its
  accumulator, adds the product of the point's [4096,128] block of h with W2, and copies the accumulator into
  the output block. This file fixes the two conditions (true at every point), names the buffers, and runs the body.
-/
import proofs.«169783_j66494683676774_1_alg».proof.Proof.Gen.KernelIdeal.Launch
import proofs.«169783_j66494683676774_1_alg».proof.Proof.Gen.KernelIdeal.Skeleton
import proofs.«169783_j66494683676774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "k = 0", as the body computes it to clear the accumulator, -/
abbrev onlyK (i : grid1.Coords) : Prop :=
  (Scalar.cmpi .ne (Scalar.extui (Scalar.cmpi .eq (BitVec.ofNat 32 (i 1).val) 0#32)) 0#32) = 1#1
/-- and as it computes it to copy the accumulator out. -/
abbrev onlyK' (i : grid1.Coords) : Prop := k1_cond2 i = 1#1
/-- Both hold at every point: the contraction axis of the grid has one step. -/
theorem onlyK_all : ∀ t : Fin cfg1.N, onlyK (grid1.coords t) :=
  (by decide +kernel : ∀ t : Fin grid1.N, onlyK (grid1.coords t))
theorem onlyK'_all : ∀ t : Fin cfg1.N, onlyK' (grid1.coords t) :=
  (by decide +kernel : ∀ t : Fin grid1.N, onlyK' (grid1.coords t))

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

abbrev mx1 (t : Fin cfg1.N) : Memref sig .tc .vmem S4096x128 .f32 := win1_0.stage (cfg1.slots t 0)
abbrev hx1 (t : Fin cfg1.N) : (mx1 t).IsWhole := hstage1_0 ((cfg1.slots t 0).cast nbuf1_0)
abbrev mw1 (t : Fin cfg1.N) : Memref sig .tc .vmem S128x128 .f32 := win1_1.stage (cfg1.slots t 1)
abbrev hw1 (t : Fin cfg1.N) : (mw1 t).IsWhole := hstage1_1 ((cfg1.slots t 1).cast nbuf1_1)
abbrev mo1 (t : Fin cfg1.N) : Memref sig .tc .vmem S4096x128 .f32 := win1_2.stage (cfg1.slots t 2)
abbrev ho1 (t : Fin cfg1.N) : (mo1 t).IsWhole := hstage1_2 ((cfg1.slots t 2).cast nbuf1_2)
abbrev acc1 : Memref sig .tc .vmem S4096x128 .f32 := Memref.whole cc1_scratch0
abbrev outV1 : View sig .tc .vmem S4096x128 .f32 := (Memref.whole cc1_stg2_0 : Memref sig .tc .vmem S4096x128 .f32).view

/-- What the pipeline keeps for the body beside the windows: the first product's scoped buffers, the accumulator at
    some contents, and the generator register at some state. -/
theorem rest1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) acc1 fullShare d)) ∗ (∃ r, prngReg c r)) := by
  unfold Pipeline.ΦA; rw [scopedRest1_eq]; simp only [acc1, owns_whole]; try rfl

set_option maxHeartbeats 1000000 in
/-- The body on whole buffers: the inputs at their contents, the output block and the accumulator at anything; it
    ends with the inputs as they were and the pieces its stores wrote in the other two. -/
noncomputable def secondRun (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) :
    Σ' (L2 : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__dense_matmul_kernel i arg2 harg2 arg3 harg3 arg4 harg4 arg5 harg5) K } := by
  refine ⟨?_, ?_, fun E K => ?run⟩
  case run =>
    simp only [cc1__dense_matmul_kernel_eq_skeleton]; unfold cc1__dense_matmul_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KernelIdeal.SecondData.lean ====
/-
  The second product, h·W2, as the pipeline sees it: the blocks a grid point is handed, what the output block
  holds after the point (the body's one case), and the body's obligation at every point. Nothing is carried from
  one point to the next: the accumulator is cleared at every point.
-/
import proofs.«169783_j66494683676774_1_alg».proof.Proof.KernelIdeal.SecondRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the second product is entered
variable (V : (c : Dev nD) → (b : Ref sig .tc) → Buf (Elt F) ((c : Thread nD τ).loc b))

/-- Window `w`'s block at point `t`, read off its array as the product finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of h holds the point's block of h at every point, -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- and the staging buffer of W2 holds W2, fetched at the first point and kept. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The one store into the output block covers it. -/
theorem outCover1 (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) (y : S4096x128.Idx) :
    ∃ pc ∈ (secondRun c i arg2 harg2 arg3 harg3 arg4 harg4 arg5 harg5 hc0 hc1 x0 x1).1, y ∈ pc.1.set :=
  View.cover_of_tiledL (secondRun c i arg2 harg2 arg3 harg3 arg4 harg4 arg5 harg5 hc0 hc1 x0 x1).1 S4096x128.size (by sl_kernel_rfl) y
/-- What the output block holds after the body: its pieces read back. -/
def out1 (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) : Vec F S4096x128 .f32 :=
  outV1.read (Elt F) (outV1.writes (Elt F) outV1.junk (secondRun c i arg2 harg2 arg3 harg3 arg4 harg4 arg5 harg5 hc0 hc1 x0 x1).1)

/-- The output block after point `t`. -/
def outAt1 (c : Dev nD) (t : Fin cfg1.N) : Vec F S4096x128 .f32 :=
  out1 c (grid1.coords t) (mx1 t) (hx1 t) (mw1 t) (hw1 t) (mo1 t) (ho1 t) acc1 (Memref.isWhole_whole _) (onlyK_all t) (onlyK'_all t) (blk1 V c 0 t) (blk1 V c 1 t)

/-- The arrays as the product finds them; after the body each input's buffer at its block, the output's at `outAt1`;
    the invariant what the pipeline keeps; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (mx1 t) fullShare ((dat1 V c).before 0 t d))
    ∗ (∃ d, owns (c : Thread nD τ) (mw1 t) fullShare ((dat1 V c).before 1 t d))
    ∗ (∃ d, owns (c : Thread nD τ) (mo1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks, the accumulator is taken at anything and given back
    at anything, the output block ends at `outAt1`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl, rest1_eq]
  rw [show (dat1 V c).leavesExact 0 t = owns (c : Thread nD τ) (mx1 t) fullShare ((dat1 V c).after 0 t) from by
    unfold Dat.leavesExact; rw [live1_0 t], after1_0]
  rw [show (dat1 V c).leavesExact 1 t = owns (c : Thread nD τ) (mw1 t) fullShare ((dat1 V c).after 1 t) from by
    unfold Dat.leavesExact; rw [live1_1 t], after1_1]
  rw [show (dat1 V c).leavesExact 2 t = owns (c : Thread nD τ) (mo1 t) fullShare ((dat1 V c).after 2 t) from by
    unfold Dat.leavesExact; rw [live1_2 t], after1_2]
  unfold outAt1 out1; (try dsimp only)
  iintro ⟨⟨⟨B1, B2, B3, B4, B5, B6, B7, HS⟩, Hg⟩, Ho, ⟨%d0, H0⟩, ⟨%d1, H1⟩, ⟨%d2, H2⟩⟩
  iapply ((secondRun c (grid1.coords t) _ _ _ _ _ _ _ _ (onlyK_all t) (onlyK'_all t) (blk1 V c 0 t) (blk1 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [B1 B2 B3 B4 B5 B6 B7 HS Hg]
  · isplitl [B1 B2 B3 B4 B5 B6 B7 HS]
    · isplitl [B1]; · iexact B1
      isplitl [B2]; · iexact B2
      isplitl [B3]; · iexact B3
      isplitl [B4]; · iexact B4
      isplitl [B5]; · iexact B5
      isplitl [B6]; · iexact B6
      isplitl [B7]; · iexact B7
      unfold owns; iexists _; iexists _; isplitr
      swap; · iexact HS
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (outCover1 c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.SecondValue.lean ====
/-
  The second product at the extended reals. Every grid point clears the accumulator, adds the product of its
  [4096,128] block of h with W2 — at (r, q) the sum Σ_{l < 128} h(4096·i + r, l) · W2(l, q) — and writes that to its
  output block; the four blocks tile the result, which is therefore the matrix product h·W2.
-/
import proofs.«169783_j66494683676774_1_alg».proof.Proof.KernelIdeal.SecondData
import proofs.«169783_j66494683676774_1_alg».proof.Proof.KernelIdeal.FirstValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- What the output block holds after the body, as the body's arithmetic. -/
theorem out1_eq {F : FTy → Type} [FloatOps F] (c : Dev nD) (i : grid1.Coords) (arg2 : Memref sig .tc .vmem S4096x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (hc0 : onlyK i) (hc1 : onlyK' i)
    (x0 : Vec F S4096x128 .f32) (x1 : Vec F S128x128 .f32) :
    out1 c i arg2 harg2 arg3 harg3 arg4 harg4 arg5 harg5 hc0 hc1 x0 x1 = k1_pay2 x0 x1 k1_pay1 := by
  unfold out1
  rw [View.read_writes_eq_canon _ _ _ (outCover1 c i arg2 harg2 arg3 harg3 arg4 harg4 arg5 harg5 hc0 hc1 x0 x1)]
  unfold secondRun
  dsimp only
  sl_unfold_words
  rw [View.canon_unit_zero zero2, readCov_newest _ zero2, View.readCov_unit_zero _ zero2]
  simp only [View.readAt_eq_ld, harg2.read_unread, harg3.read_unread, View.ld_unit_zero (S := S4096x128) zero2, View.ld_unit_zero (S := S128x128) zero2]

/-- The cleared accumulator is zero. -/
theorem cleared1_at (j : S4096x128.Idx) : k1_pay1 (F := Ideal) j = 0 := by
  unfold k1_pay1
  refine (congrFun (shapeCast_self _ _) j).trans ?_
  exact Ideal.ofBits_zero_f32

/-- The accumulator plus the product of the two blocks, at an entry. -/
theorem step1_at (x : Vec Ideal S4096x128 .f32) (w : Vec Ideal S128x128 .f32) (s : Vec Ideal S4096x128 .f32)
    (r : Fin 4096) (q : Fin 128) :
    k1_pay2 (F := Ideal) x w s (ix2 r q) = s (ix2 r q) + ∑ l : Fin 128, x (ix2 r l) * w (ix2 l q) := by
  unfold k1_pay2
  refine (congrFun (shapeCast_self _ _) (ix2 r q)).trans ?_
  refine (addf_apply _ _ _).trans ?_
  refine (congrArg (fun z => s (ix2 r q) + z)
    (Cert.LibPlainDot.matmul_zero_at dot_S4096x128_S128x128_S4096x128_1_0_0_1_n_n rfl rfl rfl rfl rfl rfl rfl rfl none _ _ r q)).trans ?_
  refine congrArg (fun z => s (ix2 r q) + z) (Finset.sum_congr rfl fun l _ => ?_)
  exact congrArg (fun z => z * w (ix2 l q)) (congrFun (shapeCast_self x _) (ix2 r l))

section
variable (V : (c : Dev nD) → (b : Ref sig .tc) → Buf (Elt Ideal) ((c : Thread nD τ).loc b))

/-- The printed index maps over the grid: point t reads block (t, 0) of h, the whole of W2, and writes block (t, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row of h that row r of point t's block is. -/
def rowOf1 (t : Fin cfg1.N) (r : Fin 4096) : Fin 16384 :=
  ⟨4096 * t.val + r.val, by have : t.val < 4 := lt_of_lt_of_eq t.isLt (show cfg1.N = 4 from N_1); omega⟩

theorem blk_h (c : Dev nD) (t : Fin cfg1.N) (r : Fin 4096) (l : Fin 128) :
    (blk1 V c 0 t : Vec Ideal S4096x128 .f32) (ix2 r l)
      = (V c main_v48 : S16384x128.Idx → EReal) (ix2 (rowOf1 t r) l) := by
  obtain ⟨e0, e1, -⟩ := idx1 t
  unfold blk1
  rw [View.read_apply]
  refine congrArg (V c main_v48 : S16384x128.Idx → EReal) (funext fun a => Fin.ext ?_)
  match a with
  | ⟨0, _⟩ => show win1_0.index t (0 : Fin 2) * 4096 + 1 * r.val = 4096 * t.val + r.val; omega
  | ⟨1, _⟩ => show win1_0.index t (1 : Fin 2) * 128 + 1 * l.val = l.val; omega

theorem blk_w2 (c : Dev nD) (t : Fin cfg1.N) (l : Fin 128) (q : Fin 128) :
    (blk1 V c 1 t : Vec Ideal S128x128 .f32) (ix2 l q)
      = (V c main_arg3 : S128x128.Idx → EReal) (ix2 l q) := by
  obtain ⟨-, -, e2, e3, -⟩ := idx1 t
  unfold blk1
  rw [View.read_apply]
  refine congrArg (V c main_arg3 : S128x128.Idx → EReal) (funext fun a => Fin.ext ?_)
  match a with
  | ⟨0, _⟩ => show win1_1.index t (0 : Fin 2) * 128 + 1 * l.val = l.val; omega
  | ⟨1, _⟩ => show win1_1.index t (1 : Fin 2) * 128 + 1 * q.val = q.val; omega

/-- What a point writes back is its block of the product. -/
theorem flushed_second (c : Dev nD) (t : Fin cfg1.N) :
    (dat1 V c).flushed 2 t = ((cfg1.win 2).blk t).view.read (Elt Ideal)
      (Cert.MatProduct.prod (V c main_v48 : S16384x128.Idx → EReal) (V c main_arg3 : S128x128.Idx → EReal)) := by
  obtain ⟨-, -, -, -, e4, e5⟩ := idx1 t
  show (cfg1.win 2).cut (grid1.coords t) ((dat1 V c).after 2 t) = _
  rw [after1_2]
  unfold outAt1
  rw [out1_eq]
  funext y
  obtain ⟨r, q, rfl⟩ : ∃ (r : Fin 4096) (q : Fin 128), y = ix2 r q := ⟨y 0, y 1, eq_ix2 y⟩
  refine (step1_at _ _ _ r q).trans ?_
  rw [cleared1_at, zero_add, View.read_apply]
  refine Eq.trans ?_ (cast_eq _ _).symm
  have hemb : ((cfg1.win 2).blk t).view.emb (ix2 r q) = (ix2 (rowOf1 t r) q : S16384x128.Idx) :=
    funext fun a => Fin.ext (by
      match a with
      | ⟨0, _⟩ => show win1_2.index t (0 : Fin 2) * 4096 + 1 * r.val = 4096 * t.val + r.val; omega
      | ⟨1, _⟩ => show win1_2.index t (1 : Fin 2) * 128 + 1 * q.val = q.val; omega)
  rw [hemb, Cert.MatProduct.prod_at]
  refine Finset.sum_congr rfl fun l _ => ?_
  rw [blk_h V c t r l, blk_w2 V c t l q]

theorem mem_blk_second (t : Fin cfg1.N) (i : S16384x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v49).slice (win1_2.rect t)).set ↔ _
  rw [View.set_slice_whole, Rect.mem_set_unit]
  exact Iff.rfl

/-- The second product leaves the matrix product h·W2 in its result array. -/
theorem second_product (c : Dev nD) :
    (dat1 V c).arrAt 2 cfg1.N
      = Cert.MatProduct.prod (V c main_v48 : S16384x128.Idx → EReal) (V c main_arg3 : S128x128.Idx → EReal) := by
  refine (dat1 V c).arrAt_eq_of_cover 2 _ (fun t _ => flushed_second V c t) fun i => ?_
  have hi0 : (i 0).val < 16384 := (i 0).isLt
  have hi1 : (i 1).val < 128 := (i 1).isLt
  let t : Fin cfg1.N := ⟨(i 0).val / 4096, by rw [show cfg1.N = 4 from N_1]; omega⟩
  have ht : t.val = (i 0).val / 4096 := rfl
  obtain ⟨-, -, -, -, e4, e5⟩ := idx1 t
  refine ⟨t, flush1_2 t, ?_⟩
  rw [mem_blk_second]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 128 ≤ (i 1).val ∧ (i 1).val < win1_2.index t (1 : Fin 2) * 128 + 128; omega

end

end Cert.KernelIdeal.Hand

end
-- ==== Proof.KernelIdeal.WholeRun.lean ====
/-
  The whole program as a run: host operations, the first product, host operations, the second product, host
  operations. The contents of the core's buffers are followed from the launch through these eight items; each
  product leaves its output array at what its write-backs fold to and every other buffer as it found it. Every
  weakly fair execution ends, and the final memory holds every unscoped buffer at the last of these contents:
  in particular each argument as launched.
-/
import proofs.«169783_j66494683676774_1_alg».proof.Proof.KernelIdeal.FirstData
import proofs.«169783_j66494683676774_1_alg».proof.Proof.KernelIdeal.SecondData
import proofs.«169783_j66494683676774_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- What the first product is entered with, read at the core's references. -/
abbrev E3 : (c : Dev nD) → (b : Ref sig .tc) → Buf (Elt F) ((c : Thread nD τ).loc b) := fun c b => W3 m c b
/-- After the first product: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the core's references. -/
abbrev X4 : (c : Dev nD) → (b : Ref sig .tc) → Buf (Elt F) ((c : Thread nD τ).loc b) := fun c b => W4 m c b
theorem W4_arrays (c : Dev nD) (w : Fin cfg0.W) : (dat0 (E3 m) c).arrAt w cfg0.N = X4 m c (Pipeline.arrRef spec0 w) :=
  (W4_arr m c w).symm
theorem W4_others (c : Dev nD) : ∀ b, b ∉ Finset.univ.image (Pipeline.arrRef spec0) → X4 m c b = E3 m c b :=
  fun b hb => W4_of_ne m c b fun w e => hb (Finset.mem_image.mpr ⟨w, Finset.mem_univ _, e⟩)
abbrev W5 : Dev nD → Valuation τ sig (Elt F) := fun c => StableHlo.after hostOps1 (W4 m c)
abbrev W6 : Dev nD → Valuation τ sig (Elt F) := fun c => StableHlo.after hostOps1_1 (W5 m c)
/-- What the second product is entered with. -/
abbrev E6 : (c : Dev nD) → (b : Ref sig .tc) → Buf (Elt F) ((c : Thread nD τ).loc b) := fun c b => W6 m c b
/-- After the second product. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the core's references. -/
abbrev X7 : (c : Dev nD) → (b : Ref sig .tc) → Buf (Elt F) ((c : Thread nD τ).loc b) := fun c b => W7 m c b
theorem W7_arrays (c : Dev nD) (w : Fin cfg1.W) : (dat1 (E6 m) c).arrAt w cfg1.N = X7 m c (Pipeline.arrRef spec1 w) :=
  (W7_arr m c w).symm
theorem W7_others (c : Dev nD) : ∀ b, b ∉ Finset.univ.image (Pipeline.arrRef spec1) → X7 m c b = E6 m c b :=
  fun b hb => W7_of_ne m c b fun w e => hb (Finset.mem_image.mpr ⟨w, Finset.mem_univ _, e⟩)
abbrev W8 : Dev nD → Valuation τ sig (Elt F) := fun c => StableHlo.after hostOps2 (W7 m c)

/-! ## No item writes an argument -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_1 _ hostOps1_1_writes (by decide)
    _ = W4 m c (Proc.devRef .tc main_arg0) := StableHlo.after_of_writes_sub hostOps1 _ hostOps1_writes (by decide)
    _ = W3 m c (Proc.devRef .tc main_arg0) := (W4_arr m c 0).trans (((dat0 (E3 m) c).arrAt_in 0 rfl _).trans (A_eq0 (E3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps2 _ hostOps2_writes (by decide)
    _ = W6 m c (Proc.devRef .tc main_arg1) := W7_of_ne m c main_arg1 (by decide)
    _ = W5 m c (Proc.devRef .tc main_arg1) := StableHlo.after_of_writes_sub hostOps1_1 _ hostOps1_1_writes (by decide)
    _ = W4 m c (Proc.devRef .tc main_arg1) := StableHlo.after_of_writes_sub hostOps1 _ hostOps1_writes (by decide)
    _ = W3 m c (Proc.devRef .tc main_arg1) := (W4_arr m c 1).trans (((dat0 (E3 m) c).arrAt_in 1 rfl _).trans (A_eq0 (E3 m) c 1))
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps2 _ hostOps2_writes (by decide)
    _ = W6 m c (Proc.devRef .tc main_arg2) := W7_of_ne m c main_arg2 (by decide)
    _ = W5 m c (Proc.devRef .tc main_arg2) := StableHlo.after_of_writes_sub hostOps1_1 _ hostOps1_1_writes (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps2 _ hostOps2_writes (by decide)
    _ = W6 m c (Proc.devRef .tc main_arg3) := (W7_arr m c 1).trans (((dat1 (E6 m) c).arrAt_in 1 rfl _).trans (A_eq1 (E6 m) c 1))
    _ = W5 m c (Proc.devRef .tc main_arg3) := StableHlo.after_of_writes_sub hostOps1_1 _ hostOps1_1_writes (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps2 _ hostOps2_writes (by decide)
    _ = W6 m c (Proc.devRef .tc main_arg4) := W7_of_ne m c main_arg4 (by decide)
    _ = W5 m c (Proc.devRef .tc main_arg4) := StableHlo.after_of_writes_sub hostOps1_1 _ hostOps1_1_writes (by decide)
    _ = W4 m c (Proc.devRef .tc main_arg4) := StableHlo.after_of_writes_sub hostOps1 _ hostOps1_writes (by decide)
    _ = W3 m c (Proc.devRef .tc main_arg4) := W4_of_ne m c main_arg4 (by decide)
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps2 _ hostOps2_writes (by decide)
    _ = W6 m c (Proc.devRef .tc main_arg5) := W7_of_ne m c main_arg5 (by decide)
    _ = W5 m c (Proc.devRef .tc main_arg5) := StableHlo.after_of_writes_sub hostOps1_1 _ hostOps1_1_writes (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl

/-! ## The proof data and the thread state -/

def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E6 m) c
abbrev noVariants : Variants := Variants.none
abbrev noPairs : GSem nD τ sig → Finset Unit := fun _ => ∅
abbrev noLevel : GSem nD τ sig → Unit → ℕ := fun _ _ => 0
/-- What rides beside the buffers through every item: the generator register at some state, and nothing owed. -/
abbrev carry (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carry
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (W8 m c) ∗ ∃ r, prngReg c r)

/-! ## The two products as items -/

set_option backward.isDefEq.respectTransparency.types false in
def region0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ noPairs noLevel 0 fun _ _ => rfl
  pre c := iprop(StableHlo.held (c : Thread nD τ) (Pipeline.ucRefs τ sig) (W3 m c) ∗ carry c)
  post c := iprop(StableHlo.held (c : Thread nD τ) (Pipeline.ucRefs τ sig) (W4 m c) ∗ carry c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (inv0_in (E3 m) c)
    unfold Pipeline.ΦA
    iintro ⟨Hp, -, Hr⟩
    isplitl [Hr]; · iexact Hr
    iexact Hp
  hout c := by
    rw [Pipeline.ownSems0_none]
    refine (inv0_out (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (X4 m c) ((pdats m 0 c).arrAt · cfg0.N) (W4_arrays m c) (W4_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def region1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ noPairs noLevel 1 fun _ _ => rfl
  pre c := iprop(StableHlo.held (c : Thread nD τ) (Pipeline.ucRefs τ sig) (W6 m c) ∗ carry c)
  post c := iprop(StableHlo.held (c : Thread nD τ) (Pipeline.ucRefs τ sig) (W7 m c) ∗ carry c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (X7 m c) ((pdats m 1 c).arrAt · cfg1.N) (W7_arrays m c) (W7_others m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

abbrev items : List (Pipeline.Seg (pcfgs (F := F)) adm (pdats m) () defs₀ noVariants noPairs noLevel) :=
  [ .host (hostItem hostOps0 hostOps0_sub hostOps0_fresh (W0 m)),
    .host (hostItem hostOps0_1 hostOps0_1_sub hostOps0_1_fresh (W1 m)),
    .host (hostItem hostOps0_2 hostOps0_2_sub hostOps0_2_fresh (W2 m)),
    .region (region0 m),
    .host (hostItem hostOps1 hostOps1_sub hostOps1_fresh (W4 m)),
    .host (hostItem hostOps1_1 hostOps1_1_sub hostOps1_1_fresh (W5 m)),
    .region (region1 m),
    .host (hostItem hostOps2 hostOps2_sub hostOps2_fresh (W7 m)) ]

theorem main_items (c : Dev nD) : main (F := F) c = Pipeline.Seg.run (items m) := (main_chain c).trans (by chain_rfl)

set_option backward.isDefEq.respectTransparency.types false in
/-- Every weakly fair execution of the program from memory `m` with zero counters terminates, nothing faulting, and the
    final memory holds every unscoped buffer at the contents `W8` followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ carry c)) (Tₙ := lastState m)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ carry c)
        ⊢ iprop(lastState m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩) (run_all m ρ)

end Cert.KernelIdeal.Hand

end
-- ==== Proof.HostSide.lean ====
/-
  The operations the program applies to its arrays around its two dense products, as three pure functions of
  arrays, and that each stretch of those operations leaves exactly the function's value.

  The graph has N = 16384 nodes and E = 1048576 given edges; every node also gets a self loop, so the edge lists
  have E + N = 1064960 entries. From the edge array alone: the source list, the destination list, and the
  per-edge weight  w(e) = d(src e)^(-1/2) · d(dst e)^(-1/2)  with d the in-degree counted over the E + N entries
  (taken as 0 where the degree is not positive). A layer takes a product array p (N × 128), gathers its rows at
  the sources, scales row e by w(e), adds the rows up at the destinations and adds the bias to every row. The first
  layer ends with the maximum with 0; after the second one, the decode step takes for each given edge the inner
  product of the rows at its two ends.
-/
import proofs.«169783_j66494683676774_1_alg».proof.Proof.Gen.KernelIdeal.Launch
import proofs.«169783_j66494683676774_1_alg».proof.Proof.RefRun
import Idealize.ShloMosaic.Lib.StableHlo.Run

set_option maxRecDepth 16384

noncomputable section

namespace Cert.HostSide

open Cert.KernelIdeal Cert.KernelIdeal.Gen
open Idealize.ShloMosaic Idealize.ShloMosaic.TcCoe Idealize.SL.Sem

variable {F : FTy → Type} [FloatOps F]

/-! ## The pieces -/

/-- Row r (0: sources, 1: destinations) of the 2 × E edge array, as a vector of E entries. -/
def row0 (a5 : (⟨S2x1048576, .i32⟩ : BufTy).Contents (Elt F)) : (⟨S1048576, .i32⟩ : BufTy).Contents (Elt F) :=
  shapeCast S1048576 (extractStridedSlice S1x1048576 ![0, 0] a5 slices_S2x1048576_S1x1048576_0_0) shapeCasts_S1x1048576_S1048576
def row1 (a5 : (⟨S2x1048576, .i32⟩ : BufTy).Contents (Elt F)) : (⟨S1048576, .i32⟩ : BufTy).Contents (Elt F) :=
  shapeCast S1048576 (extractStridedSlice S1x1048576 ![1, 0] a5 slices_S2x1048576_S1x1048576_1_0) shapeCasts_S1x1048576_S1048576

/-- A row of the edge array followed by 0, 1, …, N − 1 (the self loops). -/
def withLoops (r : (⟨S1048576, .i32⟩ : BufTy).Contents (Elt F)) : (⟨S1064960, .i32⟩ : BufTy).Contents (Elt F) :=
  concatenate S1064960 0 [⟨S1048576, r⟩, ⟨S16384, (iotaInDim S16384 32 0)⟩] concatenates_S1048576_S16384_S1064960_d0

/-- A list of E + N node numbers with the negative ones raised by N. -/
def wrapL (v : (⟨S1064960, .i32⟩ : BufTy).Contents (Elt F)) : (⟨S1064960, .i32⟩ : BufTy).Contents (Elt F) :=
  select (cmpi .slt v (broadcastInDim S1064960 ![] bcast_S_S1064960 (constantI S_ 32 0#32)))
    (addi v (broadcastInDim S1064960 ![] bcast_S_S1064960 (constantI S_ 32 16384#32))) v

/-- A list of E node numbers with the negative ones raised by N. -/
def wrapE (v : (⟨S1048576, .i32⟩ : BufTy).Contents (Elt F)) : (⟨S1048576, .i32⟩ : BufTy).Contents (Elt F) :=
  select (cmpi .slt v (broadcastInDim S1048576 ![] bcast_S_S1048576 (constantI S_ 32 0#32)))
    (addi v (broadcastInDim S1048576 ![] bcast_S_S1048576 (constantI S_ 32 16384#32))) v

/-- The in-degrees: 1 added at the destination of each of the E + N entries, starting from 0. -/
def degree (v6 : (⟨S1064960, .i32⟩ : BufTy).Contents (Elt F)) : (⟨S16384, .f32⟩ : BufTy).Contents (Elt F) :=
  Host.scatterAdd scatter_S16384_S1064960x1_S1064960_n_0_0_1
    (broadcastInDim S16384 ![] bcast_S_S16384 (constant (F := F) S_ .f32 0x00000000#32))
    (broadcastInDim S1064960x1 ![0] bcast_S1064960_S1064960x1_0 v6)
    (broadcastInDim S1064960 ![] bcast_S_S1064960 (constant (F := F) S_ .f32 0x3F800000#32))

/-- d^(-1/2) where d > 0, and 0 elsewhere. -/
def invSqrtDeg (v6 : (⟨S1064960, .i32⟩ : BufTy).Contents (Elt F)) : (⟨S16384, .f32⟩ : BufTy).Contents (Elt F) :=
  select (cmpf (F := F) .ogt (degree v6) (broadcastInDim S16384 ![] bcast_S_S16384 (constant (F := F) S_ .f32 0x00000000#32)))
    (Host.rsqrt (degree v6))
    (broadcastInDim S16384 ![] bcast_S_S16384 (constant (F := F) S_ .f32 0x00000000#32))

/-- The weight of each entry: the value of s at its source times the value of s at its destination. -/
def weight (s : (⟨S16384, .f32⟩ : BufTy).Contents (Elt F)) (v3 v6 : (⟨S1064960, .i32⟩ : BufTy).Contents (Elt F)) :
    (⟨S1064960, .f32⟩ : BufTy).Contents (Elt F) :=
  mulf (Host.gather gather_S16384_S1064960x1_S1064960_n_0_n_n_0_1_1 s (broadcastInDim S1064960x1 ![0] bcast_S1064960_S1064960x1_0 (wrapL v3)))
    (Host.gather gather_S16384_S1064960x1_S1064960_n_0_n_n_0_1_1 s (broadcastInDim S1064960x1 ![0] bcast_S1064960_S1064960x1_0 (wrapL v6)))

/-- One propagation: rows of p gathered at the sources, scaled by the weights, summed at the destinations,
    plus the bias on every row. -/
def propagate (p : (⟨S16384x128, .f32⟩ : BufTy).Contents (Elt F)) (v3 v6 : (⟨S1064960, .i32⟩ : BufTy).Contents (Elt F))
    (v30 : (⟨S1064960, .f32⟩ : BufTy).Contents (Elt F)) (b : (⟨S128, .f32⟩ : BufTy).Contents (Elt F)) :
    (⟨S16384x128, .f32⟩ : BufTy).Contents (Elt F) :=
  addf
    (Host.scatterAdd scatter_S16384x128_S1064960x1_S1064960x128_1_0_0_1
      (broadcastInDim S16384x128 ![] bcast_S_S16384x128 (constant (F := F) S_ .f32 0x00000000#32))
      (broadcastInDim S1064960x1 ![0] bcast_S1064960_S1064960x1_0 v6)
      (mulf
        (Host.gather gather_S16384x128_S1064960x1_S1064960x128_1_0_n_n_0_1_1128 p
          (broadcastInDim S1064960x1 ![0] bcast_S1064960_S1064960x1_0 (wrapL v3)))
        (broadcastInDim S1064960x128 ![0, 1] bcast_S1064960x1_S1064960x128_0_1
          (broadcastInDim S1064960x1 ![0] bcast_S1064960_S1064960x1_0 v30))))
    (broadcastInDim S16384x128 ![0, 1] bcast_S1x128_S16384x128_0_1 (broadcastInDim S1x128 ![1] bcast_S128_S1x128_1 b))

/-! ## The three functions -/

/-- From the edge array: the sources with the self loops, the destinations with the self loops, the weights. -/
def EDGES (a5 : (⟨S2x1048576, .i32⟩ : BufTy).Contents (Elt F)) :
    (⟨S1064960, .i32⟩ : BufTy).Contents (Elt F) × (⟨S1064960, .i32⟩ : BufTy).Contents (Elt F) × (⟨S1064960, .f32⟩ : BufTy).Contents (Elt F) :=
  (withLoops (row0 a5), withLoops (row1 a5),
    weight (invSqrtDeg (withLoops (row1 a5))) (withLoops (row0 a5)) (withLoops (row1 a5)))

/-- The first layer after its product p1: one propagation with bias b1, then the maximum with 0. -/
def LAYER1 (p1 : (⟨S16384x128, .f32⟩ : BufTy).Contents (Elt F)) (v3 v6 : (⟨S1064960, .i32⟩ : BufTy).Contents (Elt F))
    (v30 : (⟨S1064960, .f32⟩ : BufTy).Contents (Elt F)) (b1 : (⟨S128, .f32⟩ : BufTy).Contents (Elt F)) :
    (⟨S16384x128, .f32⟩ : BufTy).Contents (Elt F) :=
  maximumf (propagate p1 v3 v6 v30 b1) (broadcastInDim S16384x128 ![] bcast_S_S16384x128 (constant (F := F) S_ .f32 0x00000000#32))

/-- The second layer after its product p2 and the decode: one propagation with bias b2; then, for each given edge,
    the sum over the 128 columns of the product of the rows at its source and at its destination. -/
def DECODE (p2 : (⟨S16384x128, .f32⟩ : BufTy).Contents (Elt F)) (v3 v6 : (⟨S1064960, .i32⟩ : BufTy).Contents (Elt F))
    (v30 : (⟨S1064960, .f32⟩ : BufTy).Contents (Elt F)) (b2 : (⟨S128, .f32⟩ : BufTy).Contents (Elt F))
    (a5 : (⟨S2x1048576, .i32⟩ : BufTy).Contents (Elt F)) : (⟨S1048576, .f32⟩ : BufTy).Contents (Elt F) :=
  Host.reduceAdd
    (mulf
      (Host.gather gather_S16384x128_S1048576x1_S1048576x128_1_0_n_n_0_1_1128 (propagate p2 v3 v6 v30 b2)
        (broadcastInDim S1048576x1 ![0] bcast_S1048576_S1048576x1_0 (wrapE (row0 a5))))
      (Host.gather gather_S16384x128_S1048576x1_S1048576x128_1_0_n_n_0_1_1128 (propagate p2 v3 v6 v30 b2)
        (broadcastInDim S1048576x1 ![0] bcast_S1048576_S1048576x1_0 (wrapE (row1 a5)))))
    (constant (F := F) S_ .f32 0x00000000#32) reducesTo_S1048576x128_S1048576_d1 h_S_

/-! ## Each stretch of operations leaves the function's value -/

section Stretches

variable (U : Valuation τ sig (Elt F))

/-- The operations before the first product leave the source list where it goes, -/
theorem edges_src_of :
    StableHlo.after hostOps0_2 (StableHlo.after hostOps0_1 (StableHlo.after hostOps0 U)) (Proc.devRef .tc main_v3)
      = (EDGES (U main_arg5)).1 := by
  after_results_simp
  rfl

/-- the destination list where it goes, -/
theorem edges_dst_of :
    StableHlo.after hostOps0_2 (StableHlo.after hostOps0_1 (StableHlo.after hostOps0 U)) (Proc.devRef .tc main_v6)
      = (EDGES (U main_arg5)).2.1 := by
  after_results_simp
  rfl

/-- and the weights where they go: each a function of the edge array as they found it. -/
theorem edges_norm_of :
    StableHlo.after hostOps0_2 (StableHlo.after hostOps0_1 (StableHlo.after hostOps0 U)) (Proc.devRef .tc main_v30)
      = (EDGES (U main_arg5)).2.2 := by
  after_results_simp
  rfl

/-- The operations between the two products leave, where the first layer's result goes, the first layer's
    function of the first product's array, the edge lists, the weights and the first bias as they found them. -/
theorem layer1_of :
    StableHlo.after hostOps1_1 (StableHlo.after hostOps1 U) (Proc.devRef .tc main_v48)
      = LAYER1 (U main_v31) (U main_v3) (U main_v6) (U main_v30) (U main_arg2) := by
  after_results_simp
  rfl

/-- The operations after the second product leave, where the program's result goes, the decode function of the
    second product's array, the edge lists, the weights, the second bias and the edge array as they found them. -/
theorem decode_of :
    StableHlo.after hostOps2 U (Proc.devRef .tc main_v85)
      = DECODE (U main_v49) (U main_v3) (U main_v6) (U main_v30) (U main_arg4) (U main_arg5) := by
  after_results_simp
  rfl

end Stretches

end Cert.HostSide

/-! ## The reference

The reference applies the same operations, with the two products taken whole, and works the degrees and the
weights out once per layer: as a term of its arguments, its result is the three functions composed with the two
whole products. -/

namespace Cert.HostSide

open Cert.ReferenceIdeal
open Idealize.ShloMosaic Idealize.ShloMosaic.TcCoe Idealize.SL.Sem

variable {F : FTy → Type} [FloatOps F]

/-- The reference's result is the decode function of the second whole product, taken of the first layer's function
    of the first whole product, over the edge lists and weights of the edge array. -/
theorem reference_eq (m : (ℓ : Loc nD τ sig) → Buf (Elt F) ℓ) (c : Dev nD) :
    Cert.ReferenceIdeal.ValueP.res_main_v109 m c
      = DECODE
          (Host.dotGeneral dot_S16384x128_S128x128_S16384x128_1_0_0_1_n_n none
            (LAYER1
              (Host.dotGeneral dot_S16384x16384_S16384x128_S16384x128_1_0_0_1_n_n none
                (m ((c.tc : Thread nD τ).loc main_arg0)) (m ((c.tc : Thread nD τ).loc main_arg1)))
              (EDGES (m ((c.tc : Thread nD τ).loc main_arg5))).1 (EDGES (m ((c.tc : Thread nD τ).loc main_arg5))).2.1
              (EDGES (m ((c.tc : Thread nD τ).loc main_arg5))).2.2 (m ((c.tc : Thread nD τ).loc main_arg2)))
            (m ((c.tc : Thread nD τ).loc main_arg3)))
          (EDGES (m ((c.tc : Thread nD τ).loc main_arg5))).1 (EDGES (m ((c.tc : Thread nD τ).loc main_arg5))).2.1
          (EDGES (m ((c.tc : Thread nD τ).loc main_arg5))).2.2 (m ((c.tc : Thread nD τ).loc main_arg4))
          (m ((c.tc : Thread nD τ).loc main_arg5)) := by
  unfold Cert.ReferenceIdeal.ValueP.res_main_v109
  rfl

end Cert.HostSide

end
-- ==== Proof.KernelIdeal.Passage.lean ====
/-
  What the host operations of the whole run hand from item to item. The edge lists and the weights are computed
  before the first product, and nothing after that writes them; no item writes an argument that it does not own as
  a product's array, and the products leave their operands as they found them. So the operations after each
  product find, beside that product's array, the edge lists and weights of the launched edge array and the
  launched biases: the first layer's result and the program's result are the host side's functions of the
  products' arrays and of launch contents only.
-/
import proofs.«169783_j66494683676774_1_alg».proof.Proof.KernelIdeal.WholeRun
import proofs.«169783_j66494683676774_1_alg».proof.Proof.HostSide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A buffer walked back through the items that do not write it -/

/-- A buffer that none of the operations before the first product writes is, when the first product is entered,
    as launched. -/
theorem W3_eq_launch (c : Dev nD) (b : Ref sig .tc) (h2 : b ∉ hostOps0_2_W) (h1 : b ∉ hostOps0_1_W) (h0 : b ∉ hostOps0_W) :
    W3 m c (Proc.devRef .tc b) = m ((c : Thread nD τ).loc b) :=
  calc W3 m c (Proc.devRef .tc b)
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-- A buffer that is no array of the first product, and that the operations between the products do not write,
    is, when the second product is entered, as the first product found it. -/
theorem W6_eq_W3 (c : Dev nD) (b : Ref sig .tc) (h11 : b ∉ hostOps1_1_W) (h1 : b ∉ hostOps1_W)
    (ha : ∀ w, Pipeline.arrRef spec0 w ≠ b) :
    W6 m c (Proc.devRef .tc b) = W3 m c (Proc.devRef .tc b) :=
  calc W6 m c (Proc.devRef .tc b)
    _ = W5 m c (Proc.devRef .tc b) := StableHlo.after_of_writes_sub hostOps1_1 _ hostOps1_1_writes h11
    _ = W4 m c (Proc.devRef .tc b) := StableHlo.after_of_writes_sub hostOps1 _ hostOps1_writes h1
    _ = W3 m c (Proc.devRef .tc b) := W4_of_ne m c b ha

/-- If it is no array of the second product either, the second product leaves it so. -/
theorem W7_eq_W3 (c : Dev nD) (b : Ref sig .tc) (hb : ∀ w, Pipeline.arrRef spec1 w ≠ b) (h11 : b ∉ hostOps1_1_W)
    (h1 : b ∉ hostOps1_W) (ha : ∀ w, Pipeline.arrRef spec0 w ≠ b) :
    W7 m c (Proc.devRef .tc b) = W3 m c (Proc.devRef .tc b) :=
  (W7_of_ne m c b hb).trans (W6_eq_W3 m c b h11 h1 ha)

/-! ## When the first product is entered -/

/-- The source list, the destination list and the weights are those of the launched edge array. -/
theorem W3_main_v3 (c : Dev nD) :
    W3 m c (Proc.devRef .tc main_v3) = (Cert.HostSide.EDGES (m ((c : Thread nD τ).loc main_arg5))).1 :=
  Cert.HostSide.edges_src_of (W0 m c)
theorem W3_main_v6 (c : Dev nD) :
    W3 m c (Proc.devRef .tc main_v6) = (Cert.HostSide.EDGES (m ((c : Thread nD τ).loc main_arg5))).2.1 :=
  Cert.HostSide.edges_dst_of (W0 m c)
theorem W3_main_v30 (c : Dev nD) :
    W3 m c (Proc.devRef .tc main_v30) = (Cert.HostSide.EDGES (m ((c : Thread nD τ).loc main_arg5))).2.2 :=
  Cert.HostSide.edges_norm_of (W0 m c)

/-- The first product's two operands are as launched. -/
theorem W3_main_arg0 (c : Dev nD) : W3 m c (Proc.devRef .tc main_arg0) = m ((c : Thread nD τ).loc main_arg0) :=
  W3_eq_launch m c main_arg0 (by decide) (by decide) (by decide)
theorem W3_main_arg1 (c : Dev nD) : W3 m c (Proc.devRef .tc main_arg1) = m ((c : Thread nD τ).loc main_arg1) :=
  W3_eq_launch m c main_arg1 (by decide) (by decide) (by decide)

/-! ## After the first product -/

/-- The edge lists and the weights are not the first product's arrays: it leaves them. -/
theorem W4_main_v3 (c : Dev nD) :
    W4 m c (Proc.devRef .tc main_v3) = (Cert.HostSide.EDGES (m ((c : Thread nD τ).loc main_arg5))).1 :=
  (W4_of_ne m c main_v3 (by decide)).trans (W3_main_v3 m c)
theorem W4_main_v6 (c : Dev nD) :
    W4 m c (Proc.devRef .tc main_v6) = (Cert.HostSide.EDGES (m ((c : Thread nD τ).loc main_arg5))).2.1 :=
  (W4_of_ne m c main_v6 (by decide)).trans (W3_main_v6 m c)
theorem W4_main_v30 (c : Dev nD) :
    W4 m c (Proc.devRef .tc main_v30) = (Cert.HostSide.EDGES (m ((c : Thread nD τ).loc main_arg5))).2.2 :=
  (W4_of_ne m c main_v30 (by decide)).trans (W3_main_v30 m c)
/-- The first bias is as launched. -/
theorem W4_main_arg2 (c : Dev nD) : W4 m c (Proc.devRef .tc main_arg2) = m ((c : Thread nD τ).loc main_arg2) :=
  (W4_of_ne m c main_arg2 (by decide)).trans (W3_eq_launch m c main_arg2 (by decide) (by decide) (by decide))

/-! ## When the second product is entered, and after it -/

/-- The second product's weight operand is as launched. -/
theorem W6_main_arg3 (c : Dev nD) : W6 m c (Proc.devRef .tc main_arg3) = m ((c : Thread nD τ).loc main_arg3) :=
  (W6_eq_W3 m c main_arg3 (by decide) (by decide) (by decide)).trans
    (W3_eq_launch m c main_arg3 (by decide) (by decide) (by decide))

/-- Nothing after the first product writes the edge lists or the weights, -/
theorem W7_main_v3 (c : Dev nD) :
    W7 m c (Proc.devRef .tc main_v3) = (Cert.HostSide.EDGES (m ((c : Thread nD τ).loc main_arg5))).1 :=
  (W7_eq_W3 m c main_v3 (by decide) (by decide) (by decide) (by decide)).trans (W3_main_v3 m c)
theorem W7_main_v6 (c : Dev nD) :
    W7 m c (Proc.devRef .tc main_v6) = (Cert.HostSide.EDGES (m ((c : Thread nD τ).loc main_arg5))).2.1 :=
  (W7_eq_W3 m c main_v6 (by decide) (by decide) (by decide) (by decide)).trans (W3_main_v6 m c)
theorem W7_main_v30 (c : Dev nD) :
    W7 m c (Proc.devRef .tc main_v30) = (Cert.HostSide.EDGES (m ((c : Thread nD τ).loc main_arg5))).2.2 :=
  (W7_eq_W3 m c main_v30 (by decide) (by decide) (by decide) (by decide)).trans (W3_main_v30 m c)
/-- and the second bias and the edge array are as launched. -/
theorem W7_main_arg4 (c : Dev nD) : W7 m c (Proc.devRef .tc main_arg4) = m ((c : Thread nD τ).loc main_arg4) :=
  (W7_eq_W3 m c main_arg4 (by decide) (by decide) (by decide) (by decide)).trans
    (W3_eq_launch m c main_arg4 (by decide) (by decide) (by decide))
theorem W7_main_arg5 (c : Dev nD) : W7 m c (Proc.devRef .tc main_arg5) = m ((c : Thread nD τ).loc main_arg5) :=
  (W7_eq_W3 m c main_arg5 (by decide) (by decide) (by decide) (by decide)).trans
    (W3_eq_launch m c main_arg5 (by decide) (by decide) (by decide))

/-! ## The two results -/

/-- The first layer's result, as the second product finds it: the first layer's function of the first product's
    array, the edge lists and weights of the launched edge array, and the launched first bias. -/
theorem W6_main_v48 (c : Dev nD) :
    W6 m c (Proc.devRef .tc main_v48)
      = Cert.HostSide.LAYER1 (W4 m c (Proc.devRef .tc main_v31))
          (Cert.HostSide.EDGES (m ((c : Thread nD τ).loc main_arg5))).1
          (Cert.HostSide.EDGES (m ((c : Thread nD τ).loc main_arg5))).2.1
          (Cert.HostSide.EDGES (m ((c : Thread nD τ).loc main_arg5))).2.2
          (m ((c : Thread nD τ).loc main_arg2)) :=
  (Cert.HostSide.layer1_of (W4 m c)).trans (by rw [W4_main_v3 m c, W4_main_v6 m c, W4_main_v30 m c, W4_main_arg2 m c])

/-- The program's result at the end: the decode function of the second product's array, the edge lists and weights
    of the launched edge array, the launched second bias and the launched edge array. -/
theorem W8_main_v85 (c : Dev nD) :
    W8 m c (Proc.devRef .tc main_v85)
      = Cert.HostSide.DECODE (W7 m c (Proc.devRef .tc main_v49))
          (Cert.HostSide.EDGES (m ((c : Thread nD τ).loc main_arg5))).1
          (Cert.HostSide.EDGES (m ((c : Thread nD τ).loc main_arg5))).2.1
          (Cert.HostSide.EDGES (m ((c : Thread nD τ).loc main_arg5))).2.2
          (m ((c : Thread nD τ).loc main_arg4)) (m ((c : Thread nD τ).loc main_arg5)) :=
  (Cert.HostSide.decode_of (W7 m c)).trans
    (by rw [W7_main_v3 m c, W7_main_v6 m c, W7_main_v30 m c, W7_main_arg4 m c, W7_main_arg5 m c])

end Cert.KernelIdeal.Hand

end
-- ==== Proof.KernelIdeal.Result.lean ====
/-
  The program's result as one function of its arguments, at the extended reals: the two products are the matrix
  products x·W1 and h·W2, so the result is the decode function of h·W2, with h the first layer's function of
  x·W1, over the edge lists and weights computed from the edge array.
-/
import proofs.«169783_j66494683676774_1_alg».proof.Proof.KernelIdeal.FirstValue
import proofs.«169783_j66494683676774_1_alg».proof.Proof.KernelIdeal.SecondValue
import proofs.«169783_j66494683676774_1_alg».proof.Proof.KernelIdeal.Passage

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- The first layer's activations, as a function of the arguments. -/
def hidden (c : Dev nD) : S16384x128.Idx → EReal :=
  Cert.HostSide.LAYER1 (F := Ideal) (Cert.MatProduct.prod (A := 16384) (K := 16384) (B := 128) (m ((c : Thread nD τ).loc main_arg0)) (m ((c : Thread nD τ).loc main_arg1)))
    (Cert.HostSide.EDGES (m ((c : Thread nD τ).loc main_arg5))).1 (Cert.HostSide.EDGES (m ((c : Thread nD τ).loc main_arg5))).2.1 (Cert.HostSide.EDGES (m ((c : Thread nD τ).loc main_arg5))).2.2 (m ((c : Thread nD τ).loc main_arg2))

/-- The result, as a function of the arguments. -/
def scores (c : Dev nD) : S1048576.Idx → EReal :=
  Cert.HostSide.DECODE (F := Ideal) (Cert.MatProduct.prod (A := 16384) (K := 128) (B := 128) (hidden m c) (m ((c : Thread nD τ).loc main_arg3)))
    (Cert.HostSide.EDGES (m ((c : Thread nD τ).loc main_arg5))).1 (Cert.HostSide.EDGES (m ((c : Thread nD τ).loc main_arg5))).2.1 (Cert.HostSide.EDGES (m ((c : Thread nD τ).loc main_arg5))).2.2 (m ((c : Thread nD τ).loc main_arg4)) (m ((c : Thread nD τ).loc main_arg5))

/-- What the first product leaves: x·W1. -/
theorem first_result (c : Dev nD) :
    W4 m c (Proc.devRef .tc main_v31) = Cert.MatProduct.prod (A := 16384) (K := 16384) (B := 128) (m ((c : Thread nD τ).loc main_arg0)) (m ((c : Thread nD τ).loc main_arg1)) := by
  refine (W4_arr m c 2).trans ?_
  refine (first_product (E3 m) c).trans ?_
  show Cert.MatProduct.prod (W3 m c (Proc.devRef .tc main_arg0)) (W3 m c (Proc.devRef .tc main_arg1)) = _
  rw [W3_main_arg0 m c, W3_main_arg1 m c]

/-- What the second product is entered with: the first layer's activations. -/
theorem hidden_result (c : Dev nD) : W6 m c (Proc.devRef .tc main_v48) = hidden m c := by
  rw [W6_main_v48 m c, first_result m c]
  rfl

/-- What the second product leaves: h·W2. -/
theorem second_result (c : Dev nD) :
    W7 m c (Proc.devRef .tc main_v49) = Cert.MatProduct.prod (A := 16384) (K := 128) (B := 128) (hidden m c) (m ((c : Thread nD τ).loc main_arg3)) := by
  refine (W7_arr m c 2).trans ?_
  refine (second_product (E6 m) c).trans ?_
  show Cert.MatProduct.prod (W6 m c (Proc.devRef .tc main_v48)) (W6 m c (Proc.devRef .tc main_arg3)) = _
  rw [hidden_result m c, W6_main_arg3 m c]

/-- The program's result buffer ends at `scores`. -/
theorem result_eq (c : Dev nD) : W8 m c (Proc.devRef .tc main_v85) = scores m c := by
  rw [W8_main_v85 m c, second_result m c]
  rfl

end Cert.KernelIdeal.Hand

end
-- ==== Proof.lean ====
/-
  Two GCN layers and a dot-product decode over a graph of 16384 nodes and 1048576 edges. The kernel computes the
  two dense products x·W1 (a grid of 8 row blocks by 16 blocks of the contraction index, accumulated block by
  block) and h·W2 (4 row blocks, the contraction in one step) in two pipelined regions and everything else — the
  edge lists with self loops, the degree weights, gather, scale, scatter-add, bias, the maximum with zero, the
  decode — in host operations; the reference applies the same host operations with the two products taken whole.

  Frames: each region's body is run case by case (accumulator cleared / continued / copied out) and the regions
  are chained with the host stretches; the buffers' contents are followed through the eight items of the program.
  Values, at the extended reals: a product accumulated over blocks of the contraction index is the whole sum
  (a sum over Fin 16384 taken as 16 consecutive blocks of 1024: sums in a commutative monoid, no finiteness
  needed), so both regions leave the matrix products, and the host operations around them are the reference's own.
-/
import proofs.«169783_j66494683676774_1_alg».proof.Defs
import proofs.«169783_j66494683676774_1_alg».proof.Proof.Gen.Kernel
import proofs.«169783_j66494683676774_1_alg».proof.Proof.Gen.KernelIdeal
import proofs.«169783_j66494683676774_1_alg».proof.Proof.Gen.ReferenceIdeal
import proofs.«169783_j66494683676774_1_alg».proof.Proof.Gen.Pre_finite_inputs
import proofs.«169783_j66494683676774_1_alg».proof.Proof.Kernel.WholeRun
import proofs.«169783_j66494683676774_1_alg».proof.Proof.KernelIdeal.Result
import proofs.«169783_j66494683676774_1_alg».proof.Proof.RefRun
import proofs.«169783_j66494683676774_1_alg».proof.Proof.HostSide
import proofs.«169783_j66494683676774_1_alg».proof.Proof.LibMatProduct
import Idealize.ShloMosaic.Adequacy
import Idealize.ShloMosaic.Init

set_option maxRecDepth 16384

noncomputable section

namespace Cert.Proof

open Idealize.ShloMosaic Idealize.ShloMosaic.TcCoe Idealize.SL.Sem

/-- The reference's result is the kernel's function `scores` of the arguments: its two whole products are the
    matrix products, and the rest of its term is the same three functions composed. -/
theorem reference_scores (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v109 (F := Ideal) m' c = Cert.KernelIdeal.Hand.scores m c := by
  obtain ⟨h0, h1, h2, h3, h4, h5⟩ := h
  rw [Cert.HostSide.reference_eq m' c, h0, h1, h2, h3, h4, h5]
  simp only [Host.dotGeneral]
  rw [Cert.MatProduct.dotGeneral_eq Cert.ReferenceIdeal.dot_S16384x16384_S16384x128_S16384x128_1_0_0_1_n_n rfl rfl rfl rfl rfl rfl rfl rfl none .single,
    Cert.MatProduct.dotGeneral_eq Cert.ReferenceIdeal.dot_S16384x128_S128x128_S16384x128_1_0_0_1_n_n rfl rfl rfl rfl rfl rfl rfl rfl none .single]
  rfl

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2) (Cert.ReferenceIdeal.ValueP.run (F := Ideal) m ρ),
  trivial,
  fun m ρ m' ρ' _ hagree => ⟨fun c => Cert.KernelIdeal.Hand.scores m c,
    (θ_run Cert.KernelIdeal.defs _ _).mono (fun r h c =>
      ⟨(h c _ (Cert.KernelIdeal.Hand.mem_uc Cert.KernelIdeal.main_v85 (by decide))).trans (Cert.KernelIdeal.Hand.result_eq m c),
       (h c _ (Cert.KernelIdeal.Hand.mem_uc Cert.KernelIdeal.main_arg0 (by decide))).trans (Cert.KernelIdeal.Hand.W8_main_arg0 m c),
       (h c _ (Cert.KernelIdeal.Hand.mem_uc Cert.KernelIdeal.main_arg1 (by decide))).trans (Cert.KernelIdeal.Hand.W8_main_arg1 m c),
       (h c _ (Cert.KernelIdeal.Hand.mem_uc Cert.KernelIdeal.main_arg2 (by decide))).trans (Cert.KernelIdeal.Hand.W8_main_arg2 m c),
       (h c _ (Cert.KernelIdeal.Hand.mem_uc Cert.KernelIdeal.main_arg3 (by decide))).trans (Cert.KernelIdeal.Hand.W8_main_arg3 m c),
       (h c _ (Cert.KernelIdeal.Hand.mem_uc Cert.KernelIdeal.main_arg4 (by decide))).trans (Cert.KernelIdeal.Hand.W8_main_arg4 m c),
       (h c _ (Cert.KernelIdeal.Hand.mem_uc Cert.KernelIdeal.main_arg5 (by decide))).trans (Cert.KernelIdeal.Hand.W8_main_arg5 m c)⟩)
      (Cert.KernelIdeal.Hand.run_all (F := Ideal) m ρ),
    (θ_run Cert.ReferenceIdeal.defs _ _).mono (fun _ h c => ⟨(h c).1.trans (reference_scores m m' c (hagree c)), (h c).2⟩)
      (Cert.ReferenceIdeal.ValueP.run (F := Ideal) m' ρ')⟩⟩

end Cert.Proof

end
